-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S1 : Shape := ⟨1, ![1]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x8192 .f32) (main_arg1 : FVec F S1 .f32) (main_arg2 : FVec F S1 .f32) (main_arg3 : FVec F S1 .f32) (main_arg4 : FVec F S1 .f32) (main_arg5 : FVec F S1 .f32) (main_arg6 : FVec F S1 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_v13 main_v16
-- ==== Kernel.lean ====
abbrev S16x8192 : Shape := ⟨2, ![16, 8192]⟩
abbrev S1 : Shape := ⟨1, ![1]⟩
abbrev S2x2 : Shape := ⟨2, ![2, 2]⟩
abbrev S4x4 : Shape := ⟨2, ![4, 4]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S_ : Shape := ⟨0, ![]⟩
abbrev S2 : Shape := ⟨1, ![2]⟩
abbrev S1x2 : Shape := ⟨2, ![1, 2]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S1x4x1x4 : Shape := ⟨4, ![1, 4, 1, 4]⟩
abbrev S4x4x4x4 : Shape := ⟨4, ![4, 4, 4, 4]⟩
abbrev S2x2x2x2x2x2x2x2 : Shape := ⟨8, ![2, 2, 2, 2, 2, 2, 2, 2]⟩
abbrev S8192x8192 : Shape := ⟨2, ![8192, 8192]⟩
abbrev S2048x2048 : Shape := ⟨2, ![2048, 2048]⟩
abbrev S16x2048 : Shape := ⟨2, ![16, 2048]⟩

abbrev nBuf : Space → Nat
  | .hbm => 203
  | .vmem => 4
  | .smem => 0
  | _ => 0

abbrev hbmTy0_0 (i : Nat) : BufTy := match i % 128 with
  | 0 => ⟨S16x8192, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S2x2, .f32⟩
  | 8 => ⟨S4x4, .f32⟩
  | 9 => ⟨S2x2, .f32⟩
  | 10 => ⟨S2x2, .f32⟩
  | 11 => ⟨S2x1x2x1, .f32⟩
  | 12 => ⟨S1x2x1x2, .f32⟩
  | 13 => ⟨S2x2x2x2, .f32⟩
  | 14 => ⟨S2x2x2x2, .f32⟩
  | 15 => ⟨S2x2x2x2, .f32⟩
  | 16 => ⟨S4x4, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1, .f32⟩
  | 24 => ⟨S1, .f32⟩
  | 25 => ⟨S2, .f32⟩
  | 26 => ⟨S1, .f32⟩
  | 27 => ⟨S1, .f32⟩
  | 28 => ⟨S2, .f32⟩
  | 29 => ⟨S1x2, .f32⟩
  | 30 => ⟨S1x2, .f32⟩
  | 31 => ⟨S2x2, .f32⟩
  | 32 => ⟨S4x1x4x1, .f32⟩
  | 33 => ⟨S1x2x1x2, .f32⟩
  | 34 => ⟨S4x2x4x2, .f32⟩
  | 35 => ⟨S4x2x4x2, .f32⟩
  | 36 => ⟨S4x2x4x2, .f32⟩
  | 37 => ⟨S8x8, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S1, .f32⟩
  | 46 => ⟨S2, .f32⟩
  | 47 => ⟨S1, .f32⟩
  | 48 => ⟨S1, .f32⟩
  | 49 => ⟨S2, .f32⟩
  | 50 => ⟨S1x2, .f32⟩
  | 51 => ⟨S1x2, .f32⟩
  | 52 => ⟨S2x2, .f32⟩
  | 53 => ⟨S8x1x8x1, .f32⟩
  | 54 => ⟨S1x2x1x2, .f32⟩
  | 55 => ⟨S8x2x8x2, .f32⟩
  | 56 => ⟨S8x2x8x2, .f32⟩
  | 57 => ⟨S8x2x8x2, .f32⟩
  | 58 => ⟨S16x16, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1, .f32⟩
  | 66 => ⟨S1, .f32⟩
  | 67 => ⟨S2, .f32⟩
  | 68 => ⟨S1, .f32⟩
  | 69 => ⟨S1, .f32⟩
  | 70 => ⟨S2, .f32⟩
  | 71 => ⟨S1x2, .f32⟩
  | 72 => ⟨S1x2, .f32⟩
  | 73 => ⟨S2x2, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1, .f32⟩
  | 81 => ⟨S1, .f32⟩
  | 82 => ⟨S2, .f32⟩
  | 83 => ⟨S1, .f32⟩
  | 84 => ⟨S1, .f32⟩
  | 85 => ⟨S2, .f32⟩
  | 86 => ⟨S1x2, .f32⟩
  | 87 => ⟨S1x2, .f32⟩
  | 88 => ⟨S2x2, .f32⟩
  | 89 => ⟨S2x1x2x1, .f32⟩
  | 90 => ⟨S1x2x1x2, .f32⟩
  | 91 => ⟨S2x2x2x2, .f32⟩
  | 92 => ⟨S2x2x2x2, .f32⟩
  | 93 => ⟨S2x2x2x2, .f32⟩
  | 94 => ⟨S4x4, .f32⟩
  | 95 => ⟨S4x1x4x1, .f32⟩
  | 96 => ⟨S1x4x1x4, .f32⟩
  | 97 => ⟨S4x4x4x4, .f32⟩
  | 98 => ⟨S4x4x4x4, .f32⟩
  | 99 => ⟨S4x4x4x4, .f32⟩
  | 100 => ⟨S16x16, .f32⟩
  | 101 => ⟨S4x1x4x1, .f32⟩
  | 102 => ⟨S1x2x1x2, .f32⟩
  | 103 => ⟨S4x2x4x2, .f32⟩
  | 104 => ⟨S4x2x4x2, .f32⟩
  | 105 => ⟨S4x2x4x2, .f32⟩
  | 106 => ⟨S8x8, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S1, .f32⟩
  | 114 => ⟨S1, .f32⟩
  | 115 => ⟨S2, .f32⟩
  | 116 => ⟨S1, .f32⟩
  | 117 => ⟨S1, .f32⟩
  | 118 => ⟨S2, .f32⟩
  | 119 => ⟨S1x2, .f32⟩
  | 120 => ⟨S1x2, .f32⟩
  | 121 => ⟨S2x2, .f32⟩
  | 122 => ⟨S8x1x8x1, .f32⟩
  | 123 => ⟨S1x2x1x2, .f32⟩
  | 124 => ⟨S8x2x8x2, .f32⟩
  | 125 => ⟨S8x2x8x2, .f32⟩
  | 126 => ⟨S8x2x8x2, .f32⟩
  | 127 => ⟨S16x16, .f32⟩
  | _ => ⟨S16x8192, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S1, .f32⟩
  | 7 => ⟨S1, .f32⟩
  | 8 => ⟨S2, .f32⟩
  | 9 => ⟨S1, .f32⟩
  | 10 => ⟨S1, .f32⟩
  | 11 => ⟨S2, .f32⟩
  | 12 => ⟨S1x2, .f32⟩
  | 13 => ⟨S1x2, .f32⟩
  | 14 => ⟨S2x2, .f32⟩
  | 15 => ⟨S2x1x2x1, .f32⟩
  | 16 => ⟨S1x2x1x2, .f32⟩
  | 17 => ⟨S2x2x2x2, .f32⟩
  | 18 => ⟨S2x2x2x2, .f32⟩
  | 19 => ⟨S2x2x2x2, .f32⟩
  | 20 => ⟨S4x4, .f32⟩
  | 21 => ⟨S4x1x4x1, .f32⟩
  | 22 => ⟨S1x2x1x2, .f32⟩
  | 23 => ⟨S4x2x4x2, .f32⟩
  | 24 => ⟨S4x2x4x2, .f32⟩
  | 25 => ⟨S4x2x4x2, .f32⟩
  | 26 => ⟨S8x8, .f32⟩
  | 27 => ⟨S8x1x8x1, .f32⟩
  | 28 => ⟨S1x2x1x2, .f32⟩
  | 29 => ⟨S8x2x8x2, .f32⟩
  | 30 => ⟨S8x2x8x2, .f32⟩
  | 31 => ⟨S8x2x8x2, .f32⟩
  | 32 => ⟨S16x16, .f32⟩
  | 33 => ⟨S2x1x2x1, .f32⟩
  | 34 => ⟨S1x2x1x2, .f32⟩
  | 35 => ⟨S2x2x2x2, .f32⟩
  | 36 => ⟨S2x2x2x2, .f32⟩
  | 37 => ⟨S2x2x2x2, .f32⟩
  | 38 => ⟨S4x4, .f32⟩
  | 39 => ⟨S4x1x4x1, .f32⟩
  | 40 => ⟨S1x4x1x4, .f32⟩
  | 41 => ⟨S4x4x4x4, .f32⟩
  | 42 => ⟨S4x4x4x4, .f32⟩
  | 43 => ⟨S4x4x4x4, .f32⟩
  | 44 => ⟨S16x16, .f32⟩
  | 45 => ⟨S2x2x2x2x2x2x2x2, .f32⟩
  | 46 => ⟨S2x2x2x2x2x2x2x2, .f32⟩
  | 47 => ⟨S2x2x2x2x2x2x2x2, .f32⟩
  | 48 => ⟨S16x16, .f32⟩
  | 49 => ⟨S16x16, .f32⟩
  | 50 => ⟨S16x16, .f32⟩
  | 51 => ⟨S16x16, .f32⟩
  | 52 => ⟨S16x16, .f32⟩
  | 53 => ⟨S2x1x2x1, .f32⟩
  | 54 => ⟨S1x2x1x2, .f32⟩
  | 55 => ⟨S2x2x2x2, .f32⟩
  | 56 => ⟨S2x2x2x2, .f32⟩
  | 57 => ⟨S2x2x2x2, .f32⟩
  | 58 => ⟨S4x4, .f32⟩
  | 59 => ⟨S4x1x4x1, .f32⟩
  | 60 => ⟨S1x2x1x2, .f32⟩
  | 61 => ⟨S4x2x4x2, .f32⟩
  | 62 => ⟨S4x2x4x2, .f32⟩
  | 63 => ⟨S4x2x4x2, .f32⟩
  | 64 => ⟨S8x8, .f32⟩
  | 65 => ⟨S8x1x8x1, .f32⟩
  | 66 => ⟨S1x2x1x2, .f32⟩
  | 67 => ⟨S8x2x8x2, .f32⟩
  | 68 => ⟨S8x2x8x2, .f32⟩
  | 69 => ⟨S8x2x8x2, .f32⟩
  | 70 => ⟨S16x16, .f32⟩
  | 71 => ⟨S16x16, .f32⟩
  | 72 => ⟨S16x8192, .f32⟩
  | 73 => ⟨S16x8192, .f32⟩
  | 74 => ⟨S8192x8192, .f32⟩
  | _ => ⟨S16x8192, .f32⟩

abbrev hbmTy (i : Nat) : BufTy := match i / 128 with
  | 0 => hbmTy0_0 i
  | 1 => hbmTy0_1 i
  | _ => ⟨S16x8192, .f32⟩

abbrev bufTy : (tb : Table) → Fin (tcTables nBuf tb) → BufTy
  | .hbm, ⟨i, _⟩ => hbmTy i
  | .local _ .vmem, ⟨0, _⟩ => ⟨S16x8192, .f32⟩
  | .local _ .vmem, ⟨1, _⟩ => ⟨S16x8192, .f32⟩
  | .local _ .vmem, ⟨2, _⟩ => ⟨S2048x2048, .f32⟩
  | .local _ .vmem, ⟨3, _⟩ => ⟨S2048x2048, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_cst_3 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v60 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v61 : Ref sig .tc := ⟨.hbm, 106, rfl⟩
abbrev main_v62 : Ref sig .tc := ⟨.hbm, 107, rfl⟩
abbrev main_cst_7 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v76 : Ref sig .tc := ⟨.hbm, 127, rfl⟩
abbrev main_v77 : Ref sig .tc := ⟨.hbm, 128, rfl⟩
abbrev main_cst_8 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_call7_v0 : Ref sig .tc := ⟨.hbm, 143, rfl⟩
abbrev main_call7_v1 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_v91 : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_v92 : Ref sig .tc := ⟨.hbm, 154, rfl⟩
abbrev main_call9_v0 : Ref sig .tc := ⟨.hbm, 155, rfl⟩
abbrev main_call9_v1 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_v93 : Ref sig .tc := ⟨.hbm, 160, rfl⟩
abbrev main_call10_v0 : Ref sig .tc := ⟨.hbm, 161, rfl⟩
abbrev main_call10_v1 : Ref sig .tc := ⟨.hbm, 162, rfl⟩
abbrev main_call10_v2 : Ref sig .tc := ⟨.hbm, 163, rfl⟩
abbrev main_call10_v3 : Ref sig .tc := ⟨.hbm, 164, rfl⟩
abbrev main_call10_v4 : Ref sig .tc := ⟨.hbm, 165, rfl⟩
abbrev main_v94 : Ref sig .tc := ⟨.hbm, 166, rfl⟩
abbrev main_call11_v0 : Ref sig .tc := ⟨.hbm, 167, rfl⟩
abbrev main_call11_v1 : Ref sig .tc := ⟨.hbm, 168, rfl⟩
abbrev main_call11_v2 : Ref sig .tc := ⟨.hbm, 169, rfl⟩
abbrev main_call11_v3 : Ref sig .tc := ⟨.hbm, 170, rfl⟩
abbrev main_call11_v4 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_call12_v0 : Ref sig .tc := ⟨.hbm, 181, rfl⟩
abbrev main_call12_v1 : Ref sig .tc := ⟨.hbm, 182, rfl⟩
abbrev main_call12_v2 : Ref sig .tc := ⟨.hbm, 183, rfl⟩
abbrev main_call12_v3 : Ref sig .tc := ⟨.hbm, 184, rfl⟩
abbrev main_call12_v4 : Ref sig .tc := ⟨.hbm, 185, rfl⟩
abbrev main_v104 : Ref sig .tc := ⟨.hbm, 186, rfl⟩
abbrev main_call13_v0 : Ref sig .tc := ⟨.hbm, 187, rfl⟩
abbrev main_call13_v1 : Ref sig .tc := ⟨.hbm, 188, rfl⟩
abbrev main_call13_v2 : Ref sig .tc := ⟨.hbm, 189, rfl⟩
abbrev main_call13_v3 : Ref sig .tc := ⟨.hbm, 190, rfl⟩
abbrev main_call13_v4 : Ref sig .tc := ⟨.hbm, 191, rfl⟩
abbrev main_v105 : Ref sig .tc := ⟨.hbm, 192, rfl⟩
abbrev main_call14_v0 : Ref sig .tc := ⟨.hbm, 193, rfl⟩
abbrev main_call14_v1 : Ref sig .tc := ⟨.hbm, 194, rfl⟩
abbrev main_call14_v2 : Ref sig .tc := ⟨.hbm, 195, rfl⟩
abbrev main_call14_v3 : Ref sig .tc := ⟨.hbm, 196, rfl⟩
abbrev main_call14_v4 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  v0
def k0_mult2 (i : grid0.Coords) : BitVec 32 :=
  let arg1 : BitVec 32 := BitVec.ofNat 32 (i 1).val
  let c2048_i32_0 : BitVec 32 := 2048#32
  let v2 : BitVec 32 := Scalar.muli arg1 c2048_i32_0
  v2
def k0_off1 (i : grid0.Coords) : Fin 2 → Nat :=
  let c0 : Index := 0#32
  let arg0 : BitVec 32 := BitVec.ofNat 32 (i 0).val
  let c2048_i32 : BitVec 32 := 2048#32
  let v0 : BitVec 32 := Scalar.muli arg0 c2048_i32
  let v1 : BitVec 32 := v0
  let v4 : Index := Scalar.indexCast v1
  ![0, v4.toNat]
def k0_off2 (i : grid0.Coords) : Fin 2 → Nat :=
  let c0_1 : Index := 0#32
  let arg1 : BitVec 32 := BitVec.ofNat 32 (i 1).val
  let c2048_i32_0 : BitVec 32 := 2048#32
  let v2 : BitVec 32 := Scalar.muli arg1 c2048_i32_0
  let v3 : BitVec 32 := v2
  let v8 : Index := Scalar.indexCast v3
  ![0, v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S2x2_S2x1x2x1_0_2 : S2x2.BroadcastsInDim S2x1x2x1 (![0, 2] : Fin 2 → Fin S2x1x2x1.rank)
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  shapeCasts_S1_S_ : S1.ShapeCasts S_
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  bcast_S4x4_S1x4x1x4_1_3 : S4x4.BroadcastsInDim S1x4x1x4 (![1, 3] : Fin 2 → Fin S1x4x1x4.rank)
  bcast_S4x1x4x1_S4x4x4x4_0_1_2_3 : S4x1x4x1.BroadcastsInDim S4x4x4x4 (![0, 1, 2, 3] : Fin 4 → Fin S4x4x4x4.rank)
  bcast_S1x4x1x4_S4x4x4x4_0_1_2_3 : S1x4x1x4.BroadcastsInDim S4x4x4x4 (![0, 1, 2, 3] : Fin 4 → Fin S4x4x4x4.rank)
  shapeCasts_S4x4x4x4_S16x16 : S4x4x4x4.ShapeCasts S16x16
  shapeCasts_S16x16_S2x2x2x2x2x2x2x2 : S16x16.ShapeCasts S2x2x2x2x2x2x2x2
  transposes_S2x2x2x2x2x2x2x2_S2x2x2x2x2x2x2x2_0_2_1_3_4_5_6_7 : S2x2x2x2x2x2x2x2.Transposes [0, 2, 1, 3, 4, 5, 6, 7] S2x2x2x2x2x2x2x2
  transposes_S2x2x2x2x2x2x2x2_S2x2x2x2x2x2x2x2_0_1_2_3_4_6_5_7 : S2x2x2x2x2x2x2x2.Transposes [0, 1, 2, 3, 4, 6, 5, 7] S2x2x2x2x2x2x2x2
  shapeCasts_S2x2x2x2x2x2x2x2_S16x16 : S2x2x2x2x2x2x2x2.ShapeCasts S16x16
  h_S16x2048 : 0 < S16x2048.numel
  shapeCasts_S16x2048_S16x2048 : S16x2048.ShapeCasts S16x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  dot_S16x16_S16x16_S16x16_1_0_0_1_n_n_wf : DotDims.WF S16x16 S16x16 S16x16 [1] [0] [0] [1] [] []
  dot_S16x16_S16x8192_S16x8192_1_0_0_1_n_n_wf : DotDims.WF S16x16 S16x8192 S16x8192 [1] [0] [0] [1] [] []
  dot_S16x2048_S16x2048_S2048x2048_0_0_1_1_n_n_wf : DotDims.WF S16x2048 S16x2048 S2048x2048 [0] [0] [1] [1] [] []
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S16x2048.size a ≤ S16x8192.size a
  k0_off2_inb : ∀ i : grid0.Coords, ∀ a, (k0_off2 i) a + S16x2048.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8192.size a ≤ S16x8192.size a
  hwx0_1 : ∀ i : grid0.Coords, EltTy.bits .f32 = 32 ∨ (Rect.block (s := S16x8192) S16x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S16x16_S16x8192_S16x8192_1_0_0_1_n_n : DotDims S16x16 S16x8192 S16x8192 where
  lhsContracting := [1]
  rhsContracting := [0]
  lhsNonContracting := [0]
  rhsNonContracting := [1]
  lhsBatch := []
  rhsBatch := []
  wf := dot_S16x16_S16x8192_S16x8192_1_0_0_1_n_n_wf
def dot_S16x2048_S16x2048_S2048x2048_0_0_1_1_n_n : DotDims S16x2048 S16x2048 S2048x2048 where
  lhsContracting := [0]
  rhsContracting := [0]
  lhsNonContracting := [1]
  rhsNonContracting := [1]
  lhsBatch := []
  rhsBatch := []
  wf := dot_S16x2048_S16x2048_S2048x2048_0_0_1_1_n_n_wf

abbrev win0_0 : Pipeline.Window sig grid0 :=
  Pipeline.Window.ofSpec (Memref.whole main_v108) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v109) S16x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v110) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8192 : Shape := ⟨2, ![16, 8192]⟩
abbrev S1 : Shape := ⟨1, ![1]⟩
abbrev S2x2 : Shape := ⟨2, ![2, 2]⟩
abbrev S4x4 : Shape := ⟨2, ![4, 4]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S_ : Shape := ⟨0, ![]⟩
abbrev S2 : Shape := ⟨1, ![2]⟩
abbrev S1x2 : Shape := ⟨2, ![1, 2]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S1x4x1x4 : Shape := ⟨4, ![1, 4, 1, 4]⟩
abbrev S4x4x4x4 : Shape := ⟨4, ![4, 4, 4, 4]⟩
abbrev S2x2x2x2x2x2x2x2 : Shape := ⟨8, ![2, 2, 2, 2, 2, 2, 2, 2]⟩
abbrev S8192x16 : Shape := ⟨2, ![8192, 16]⟩
abbrev S8192x8192 : Shape := ⟨2, ![8192, 8192]⟩

abbrev nBuf : Space → Nat
  | .hbm => 203
  | .vmem => 0
  | .smem => 0
  | _ => 0

abbrev hbmTy0_0 (i : Nat) : BufTy := match i % 128 with
  | 0 => ⟨S16x8192, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S2x2, .f32⟩
  | 8 => ⟨S4x4, .f32⟩
  | 9 => ⟨S2x2, .f32⟩
  | 10 => ⟨S2x2, .f32⟩
  | 11 => ⟨S2x1x2x1, .f32⟩
  | 12 => ⟨S1x2x1x2, .f32⟩
  | 13 => ⟨S2x2x2x2, .f32⟩
  | 14 => ⟨S2x2x2x2, .f32⟩
  | 15 => ⟨S2x2x2x2, .f32⟩
  | 16 => ⟨S4x4, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1, .f32⟩
  | 24 => ⟨S1, .f32⟩
  | 25 => ⟨S2, .f32⟩
  | 26 => ⟨S1, .f32⟩
  | 27 => ⟨S1, .f32⟩
  | 28 => ⟨S2, .f32⟩
  | 29 => ⟨S1x2, .f32⟩
  | 30 => ⟨S1x2, .f32⟩
  | 31 => ⟨S2x2, .f32⟩
  | 32 => ⟨S4x1x4x1, .f32⟩
  | 33 => ⟨S1x2x1x2, .f32⟩
  | 34 => ⟨S4x2x4x2, .f32⟩
  | 35 => ⟨S4x2x4x2, .f32⟩
  | 36 => ⟨S4x2x4x2, .f32⟩
  | 37 => ⟨S8x8, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S1, .f32⟩
  | 46 => ⟨S2, .f32⟩
  | 47 => ⟨S1, .f32⟩
  | 48 => ⟨S1, .f32⟩
  | 49 => ⟨S2, .f32⟩
  | 50 => ⟨S1x2, .f32⟩
  | 51 => ⟨S1x2, .f32⟩
  | 52 => ⟨S2x2, .f32⟩
  | 53 => ⟨S8x1x8x1, .f32⟩
  | 54 => ⟨S1x2x1x2, .f32⟩
  | 55 => ⟨S8x2x8x2, .f32⟩
  | 56 => ⟨S8x2x8x2, .f32⟩
  | 57 => ⟨S8x2x8x2, .f32⟩
  | 58 => ⟨S16x16, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1, .f32⟩
  | 66 => ⟨S1, .f32⟩
  | 67 => ⟨S2, .f32⟩
  | 68 => ⟨S1, .f32⟩
  | 69 => ⟨S1, .f32⟩
  | 70 => ⟨S2, .f32⟩
  | 71 => ⟨S1x2, .f32⟩
  | 72 => ⟨S1x2, .f32⟩
  | 73 => ⟨S2x2, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1, .f32⟩
  | 81 => ⟨S1, .f32⟩
  | 82 => ⟨S2, .f32⟩
  | 83 => ⟨S1, .f32⟩
  | 84 => ⟨S1, .f32⟩
  | 85 => ⟨S2, .f32⟩
  | 86 => ⟨S1x2, .f32⟩
  | 87 => ⟨S1x2, .f32⟩
  | 88 => ⟨S2x2, .f32⟩
  | 89 => ⟨S2x1x2x1, .f32⟩
  | 90 => ⟨S1x2x1x2, .f32⟩
  | 91 => ⟨S2x2x2x2, .f32⟩
  | 92 => ⟨S2x2x2x2, .f32⟩
  | 93 => ⟨S2x2x2x2, .f32⟩
  | 94 => ⟨S4x4, .f32⟩
  | 95 => ⟨S4x1x4x1, .f32⟩
  | 96 => ⟨S1x4x1x4, .f32⟩
  | 97 => ⟨S4x4x4x4, .f32⟩
  | 98 => ⟨S4x4x4x4, .f32⟩
  | 99 => ⟨S4x4x4x4, .f32⟩
  | 100 => ⟨S16x16, .f32⟩
  | 101 => ⟨S4x1x4x1, .f32⟩
  | 102 => ⟨S1x2x1x2, .f32⟩
  | 103 => ⟨S4x2x4x2, .f32⟩
  | 104 => ⟨S4x2x4x2, .f32⟩
  | 105 => ⟨S4x2x4x2, .f32⟩
  | 106 => ⟨S8x8, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S1, .f32⟩
  | 114 => ⟨S1, .f32⟩
  | 115 => ⟨S2, .f32⟩
  | 116 => ⟨S1, .f32⟩
  | 117 => ⟨S1, .f32⟩
  | 118 => ⟨S2, .f32⟩
  | 119 => ⟨S1x2, .f32⟩
  | 120 => ⟨S1x2, .f32⟩
  | 121 => ⟨S2x2, .f32⟩
  | 122 => ⟨S8x1x8x1, .f32⟩
  | 123 => ⟨S1x2x1x2, .f32⟩
  | 124 => ⟨S8x2x8x2, .f32⟩
  | 125 => ⟨S8x2x8x2, .f32⟩
  | 126 => ⟨S8x2x8x2, .f32⟩
  | 127 => ⟨S16x16, .f32⟩
  | _ => ⟨S16x8192, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S1, .f32⟩
  | 7 => ⟨S1, .f32⟩
  | 8 => ⟨S2, .f32⟩
  | 9 => ⟨S1, .f32⟩
  | 10 => ⟨S1, .f32⟩
  | 11 => ⟨S2, .f32⟩
  | 12 => ⟨S1x2, .f32⟩
  | 13 => ⟨S1x2, .f32⟩
  | 14 => ⟨S2x2, .f32⟩
  | 15 => ⟨S2x1x2x1, .f32⟩
  | 16 => ⟨S1x2x1x2, .f32⟩
  | 17 => ⟨S2x2x2x2, .f32⟩
  | 18 => ⟨S2x2x2x2, .f32⟩
  | 19 => ⟨S2x2x2x2, .f32⟩
  | 20 => ⟨S4x4, .f32⟩
  | 21 => ⟨S4x1x4x1, .f32⟩
  | 22 => ⟨S1x2x1x2, .f32⟩
  | 23 => ⟨S4x2x4x2, .f32⟩
  | 24 => ⟨S4x2x4x2, .f32⟩
  | 25 => ⟨S4x2x4x2, .f32⟩
  | 26 => ⟨S8x8, .f32⟩
  | 27 => ⟨S8x1x8x1, .f32⟩
  | 28 => ⟨S1x2x1x2, .f32⟩
  | 29 => ⟨S8x2x8x2, .f32⟩
  | 30 => ⟨S8x2x8x2, .f32⟩
  | 31 => ⟨S8x2x8x2, .f32⟩
  | 32 => ⟨S16x16, .f32⟩
  | 33 => ⟨S2x1x2x1, .f32⟩
  | 34 => ⟨S1x2x1x2, .f32⟩
  | 35 => ⟨S2x2x2x2, .f32⟩
  | 36 => ⟨S2x2x2x2, .f32⟩
  | 37 => ⟨S2x2x2x2, .f32⟩
  | 38 => ⟨S4x4, .f32⟩
  | 39 => ⟨S4x1x4x1, .f32⟩
  | 40 => ⟨S1x4x1x4, .f32⟩
  | 41 => ⟨S4x4x4x4, .f32⟩
  | 42 => ⟨S4x4x4x4, .f32⟩
  | 43 => ⟨S4x4x4x4, .f32⟩
  | 44 => ⟨S16x16, .f32⟩
  | 45 => ⟨S2x2x2x2x2x2x2x2, .f32⟩
  | 46 => ⟨S2x2x2x2x2x2x2x2, .f32⟩
  | 47 => ⟨S2x2x2x2x2x2x2x2, .f32⟩
  | 48 => ⟨S16x16, .f32⟩
  | 49 => ⟨S16x16, .f32⟩
  | 50 => ⟨S16x16, .f32⟩
  | 51 => ⟨S16x16, .f32⟩
  | 52 => ⟨S16x16, .f32⟩
  | 53 => ⟨S16x8192, .f32⟩
  | 54 => ⟨S2x1x2x1, .f32⟩
  | 55 => ⟨S1x2x1x2, .f32⟩
  | 56 => ⟨S2x2x2x2, .f32⟩
  | 57 => ⟨S2x2x2x2, .f32⟩
  | 58 => ⟨S2x2x2x2, .f32⟩
  | 59 => ⟨S4x4, .f32⟩
  | 60 => ⟨S4x1x4x1, .f32⟩
  | 61 => ⟨S1x2x1x2, .f32⟩
  | 62 => ⟨S4x2x4x2, .f32⟩
  | 63 => ⟨S4x2x4x2, .f32⟩
  | 64 => ⟨S4x2x4x2, .f32⟩
  | 65 => ⟨S8x8, .f32⟩
  | 66 => ⟨S8x1x8x1, .f32⟩
  | 67 => ⟨S1x2x1x2, .f32⟩
  | 68 => ⟨S8x2x8x2, .f32⟩
  | 69 => ⟨S8x2x8x2, .f32⟩
  | 70 => ⟨S8x2x8x2, .f32⟩
  | 71 => ⟨S16x16, .f32⟩
  | 72 => ⟨S8192x16, .f32⟩
  | 73 => ⟨S16x8192, .f32⟩
  | 74 => ⟨S8192x8192, .f32⟩
  | _ => ⟨S16x8192, .f32⟩

abbrev hbmTy (i : Nat) : BufTy := match i / 128 with
  | 0 => hbmTy0_0 i
  | 1 => hbmTy0_1 i
  | _ => ⟨S16x8192, .f32⟩

abbrev bufTy : (tb : Table) → Fin (tcTables nBuf tb) → BufTy
  | .hbm, ⟨i, _⟩ => hbmTy i
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_cst_3 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v60 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v61 : Ref sig .tc := ⟨.hbm, 106, rfl⟩
abbrev main_v62 : Ref sig .tc := ⟨.hbm, 107, rfl⟩
abbrev main_cst_7 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v76 : Ref sig .tc := ⟨.hbm, 127, rfl⟩
abbrev main_v77 : Ref sig .tc := ⟨.hbm, 128, rfl⟩
abbrev main_cst_8 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_call7_v0 : Ref sig .tc := ⟨.hbm, 143, rfl⟩
abbrev main_call7_v1 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_v91 : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_v92 : Ref sig .tc := ⟨.hbm, 154, rfl⟩
abbrev main_call9_v0 : Ref sig .tc := ⟨.hbm, 155, rfl⟩
abbrev main_call9_v1 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_v93 : Ref sig .tc := ⟨.hbm, 160, rfl⟩
abbrev main_call10_v0 : Ref sig .tc := ⟨.hbm, 161, rfl⟩
abbrev main_call10_v1 : Ref sig .tc := ⟨.hbm, 162, rfl⟩
abbrev main_call10_v2 : Ref sig .tc := ⟨.hbm, 163, rfl⟩
abbrev main_call10_v3 : Ref sig .tc := ⟨.hbm, 164, rfl⟩
abbrev main_call10_v4 : Ref sig .tc := ⟨.hbm, 165, rfl⟩
abbrev main_v94 : Ref sig .tc := ⟨.hbm, 166, rfl⟩
abbrev main_call11_v0 : Ref sig .tc := ⟨.hbm, 167, rfl⟩
abbrev main_call11_v1 : Ref sig .tc := ⟨.hbm, 168, rfl⟩
abbrev main_call11_v2 : Ref sig .tc := ⟨.hbm, 169, rfl⟩
abbrev main_call11_v3 : Ref sig .tc := ⟨.hbm, 170, rfl⟩
abbrev main_call11_v4 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_call12_v0 : Ref sig .tc := ⟨.hbm, 182, rfl⟩
abbrev main_call12_v1 : Ref sig .tc := ⟨.hbm, 183, rfl⟩
abbrev main_call12_v2 : Ref sig .tc := ⟨.hbm, 184, rfl⟩
abbrev main_call12_v3 : Ref sig .tc := ⟨.hbm, 185, rfl⟩
abbrev main_call12_v4 : Ref sig .tc := ⟨.hbm, 186, rfl⟩
abbrev main_v105 : Ref sig .tc := ⟨.hbm, 187, rfl⟩
abbrev main_call13_v0 : Ref sig .tc := ⟨.hbm, 188, rfl⟩
abbrev main_call13_v1 : Ref sig .tc := ⟨.hbm, 189, rfl⟩
abbrev main_call13_v2 : Ref sig .tc := ⟨.hbm, 190, rfl⟩
abbrev main_call13_v3 : Ref sig .tc := ⟨.hbm, 191, rfl⟩
abbrev main_call13_v4 : Ref sig .tc := ⟨.hbm, 192, rfl⟩
abbrev main_v106 : Ref sig .tc := ⟨.hbm, 193, rfl⟩
abbrev main_call14_v0 : Ref sig .tc := ⟨.hbm, 194, rfl⟩
abbrev main_call14_v1 : Ref sig .tc := ⟨.hbm, 195, rfl⟩
abbrev main_call14_v2 : Ref sig .tc := ⟨.hbm, 196, rfl⟩
abbrev main_call14_v3 : Ref sig .tc := ⟨.hbm, 197, rfl⟩
abbrev main_call14_v4 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩

abbrev nD : Nat := 1
abbrev τ : Topo := Topo.v7x

variable {F : FTy → Type} [FloatOps F]

class Facts₀ : Prop where
  bcast_S2x2_S2x1x2x1_0_2 : S2x2.BroadcastsInDim S2x1x2x1 (![0, 2] : Fin 2 → Fin S2x1x2x1.rank)
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  shapeCasts_S1_S_ : S1.ShapeCasts S_
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  bcast_S4x4_S1x4x1x4_1_3 : S4x4.BroadcastsInDim S1x4x1x4 (![1, 3] : Fin 2 → Fin S1x4x1x4.rank)
  bcast_S4x1x4x1_S4x4x4x4_0_1_2_3 : S4x1x4x1.BroadcastsInDim S4x4x4x4 (![0, 1, 2, 3] : Fin 4 → Fin S4x4x4x4.rank)
  bcast_S1x4x1x4_S4x4x4x4_0_1_2_3 : S1x4x1x4.BroadcastsInDim S4x4x4x4 (![0, 1, 2, 3] : Fin 4 → Fin S4x4x4x4.rank)
  shapeCasts_S4x4x4x4_S16x16 : S4x4x4x4.ShapeCasts S16x16
  shapeCasts_S16x16_S2x2x2x2x2x2x2x2 : S16x16.ShapeCasts S2x2x2x2x2x2x2x2
  transposes_S2x2x2x2x2x2x2x2_S2x2x2x2x2x2x2x2_0_2_1_3_4_5_6_7 : S2x2x2x2x2x2x2x2.Transposes [0, 2, 1, 3, 4, 5, 6, 7] S2x2x2x2x2x2x2x2
  transposes_S2x2x2x2x2x2x2x2_S2x2x2x2x2x2x2x2_0_1_2_3_4_6_5_7 : S2x2x2x2x2x2x2x2.Transposes [0, 1, 2, 3, 4, 6, 5, 7] S2x2x2x2x2x2x2x2
  shapeCasts_S2x2x2x2x2x2x2x2_S16x16 : S2x2x2x2x2x2x2x2.ShapeCasts S16x16
  transposes_S16x8192_S8192x16_1_0 : S16x8192.Transposes [1, 0] S8192x16
  dot_S16x16_S16x16_S16x16_1_0_0_1_n_n_wf : DotDims.WF S16x16 S16x16 S16x16 [1] [0] [0] [1] [] []
  dot_S16x16_S16x8192_S16x8192_1_0_0_1_n_n_wf : DotDims.WF S16x16 S16x8192 S16x8192 [1] [0] [0] [1] [] []
  dot_S8192x16_S16x8192_S8192x8192_1_0_0_1_n_n_wf : DotDims.WF S8192x16 S16x8192 S8192x8192 [1] [0] [0] [1] [] []

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S16x16_S16x8192_S16x8192_1_0_0_1_n_n : DotDims S16x16 S16x8192 S16x8192 where
  lhsContracting := [1]
  rhsContracting := [0]
  lhsNonContracting := [0]
  rhsNonContracting := [1]
  lhsBatch := []
  rhsBatch := []
  wf := dot_S16x16_S16x8192_S16x8192_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.KerPiece.lean ====
/-
  What one run of the kernel body leaves in the output's staging buffer, as a value.

  The body makes ONE store, through the rectangle that is the whole 2048 x 2048 block, so the buffer ends
  holding that store's value: the body's product of the two slices it loaded. Each slice is the staged
  16 x 8192 array read through a 16 x 2048 rectangle whose column offset the body computed from the grid
  coordinates. Holds for any float instance.
-/
import proofs.«114526_j71408126263792_2_alg».proof.Proof.Gen.KernelIdeal.Frame
import Idealize.ShloMosaic.Lib.Pipeline.Value
import Idealize.ShloMosaic.Lib.Tactic

noncomputable section

namespace Cert.KernelIdeal.OuterValue

open Cert.KernelIdeal Cert.KernelIdeal.Gen Idealize.ShloMosaic Idealize.ShloMosaic.TcCoe Idealize.SL.Sem

variable {F : FTy → Type} [FloatOps F]

/-- The store's offsets are zero on both axes. -/
theorem zero_offsets : (![0, 0] : Fin 2 → Nat) = fun _ => 0 := funext fun a => by fin_cases a <;> rfl

/-- The slice of a staged array the body loads at grid coordinates `i`: rows 0 … 15, 2048 columns from the
    first computed offset, -/
abbrev slice1 (i : grid0.Coords) (x : Vec F S16x8192 .f32) : Vec F S16x2048 .f32 :=
  View.ld x (Rect.unit (s := S16x8192) (k0_off1 i) S16x2048.size (k0_off1_inb i))
/-- and from the second. -/
abbrev slice2 (i : grid0.Coords) (x : Vec F S16x8192 .f32) : Vec F S16x2048 .f32 :=
  View.ld x (Rect.unit (s := S16x8192) (k0_off2 i) S16x2048.size (k0_off2_inb i))

/-- THE BLOCK ONE RUN LEAVES: the body's product of the two loaded slices, whatever the staging buffers and
    whatever the output's buffer held before. -/
theorem out_eq (c : Dev nD) (i : grid0.Coords) (arg2 : Memref sig .tc .vmem S16x8192 .f32) (harg2 : arg2.IsWhole)
    (arg3 : Memref sig .tc .vmem S16x8192 .f32) (harg3 : arg3.IsWhole) (arg4 : Memref sig .tc .vmem S2048x2048 .f32)
    (harg4 : arg4.IsWhole) (x0 x1 : Vec F S16x8192 .f32) :
    out0_A_2 c i arg2 harg2 arg3 harg3 arg4 harg4 x0 x1 = k0_pay1 (slice1 i x0) (slice2 i x1) := by
  unfold out0_A_2
  rw [View.read_writes_eq_canon _ _ _ (cover0_A_2 c i arg2 harg2 arg3 harg3 arg4 harg4 x0 x1)]
  unfold kernelRun0_A
  dsimp only
  rw [View.canon_unit_zero zero_offsets]
  simp only [View.readAt_eq_ld, harg2.read_unread, harg3.read_unread]

end Cert.KernelIdeal.OuterValue

end
-- ==== Proof.KerSpec.lean ====
/-
  The specification of the kernel's result: the 8192 x 8192 array whose entry (r, s) is the inner product
  of column r of the first staged 16 x 8192 array with column s of the second — the sum over the 16 rows
  k of a (k, r) * b (k, s). It mentions no program, only the two arrays, index by index.
-/
import proofs.«114526_j71408126263792_2_alg».proof.KernelIdeal
import Idealize.ShloMosaic.Lib.ValueIdx

noncomputable section

namespace Cert.KernelIdeal.OuterValue

open Cert.KernelIdeal Idealize.ShloMosaic Idealize.ShloMosaic.ValueIdx

/-- every entry (p,q) of the result is the inner product of column p of the first staged array with column q of the second -/
def outer (a b : FVec Ideal S16x8192 .f32) : FVec Ideal S8192x8192 .f32 :=
  fun j => ∑ k : Fin 16, a (ix2 k (⟨(j 0).val, idx2_lt0 j⟩ : Fin 8192)) * b (ix2 k (⟨(j 1).val, idx2_lt1 j⟩ : Fin 8192))

end Cert.KernelIdeal.OuterValue

end
-- ==== Proof.KerBody.lean ====
/-
  The stored value of the kernel body, read at one entry.

  The body loads two 16 x 2048 slices a and b, changes their float format (the identity on extended
  reals), and stores the product that contracts axis 0 of BOTH operands into a zero accumulator: entry
  (p, q) of the 2048 x 2048 result is the inner product of column p of a with column q of b,
  the sum over k : Fin 16 of a (k, p) * b (k, q).
-/
import proofs.«114526_j71408126263792_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.OuterValue

open Cert.KernelIdeal Cert.KernelIdeal.Gen Idealize.ShloMosaic Idealize.ShloMosaic.ValueIdx

/-- The dimension numbers of the body's product: both operands contract their axis 0 and keep their axis 1. -/
abbrev dotCC : DotDims S16x2048 S16x2048 S2048x2048 := dot_S16x2048_S16x2048_S2048x2048_0_0_1_1_n_n

/-- The left operand's index at output entry `i` and contraction position `q`: the contracted axis 0 carries `q`, -/
theorem lhs_axis0 (i : S2048x2048.Idx) (q : dotCC.contr.Idx) :
    (dotCC.lhsIdx i q 0).val = (q ⟨0, by decide⟩).val :=
  dotCC.lhsIdx_val_of_single rfl i q

/-- and the free axis 1 carries the entry's row. -/
theorem lhs_axis1 (i : S2048x2048.Idx) (q : dotCC.contr.Idx) :
    (dotCC.lhsIdx i q 1).val = (i 0).val := by
  unfold DotDims.lhsIdx
  rw [dif_neg (show ¬(1 : Fin S16x2048.rank) ∈ dotCC.lhsBatch by decide),
    dif_pos (show (1 : Fin S16x2048.rank) ∈ dotCC.lhsNonContracting by decide)]
  rfl

/-- The right operand's index likewise: the contracted axis 0 carries `q`, -/
theorem rhs_axis0 (i : S2048x2048.Idx) (q : dotCC.contr.Idx) :
    (dotCC.rhsIdx i q 0).val = (q ⟨0, by decide⟩).val :=
  dotCC.rhsIdx_val_of_single rfl i q

/-- and the free axis 1 carries the entry's column. -/
theorem rhs_axis1 (i : S2048x2048.Idx) (q : dotCC.contr.Idx) :
    (dotCC.rhsIdx i q 1).val = (i 1).val := by
  unfold DotDims.rhsIdx
  rw [dif_neg (show ¬(1 : Fin S16x2048.rank) ∈ dotCC.rhsBatch by decide),
    dif_pos (show (1 : Fin S16x2048.rank) ∈ dotCC.rhsNonContracting by decide)]
  rfl

/-- THE BODY'S STORED VALUE AT AN ENTRY: the inner product of column `p` of the first loaded slice with
    column `q` of the second. The two format changes and the two same-shape casts are the identity on
    extended reals; the accumulator is the zero splat. -/
theorem pay_apply (x0 x1 : Vec Ideal S16x2048 .f32) (p q : Fin 2048) :
    k0_pay1 (F := Ideal) x0 x1 (ix2 p q) = ∑ k : Fin 16, x0 (ix2 k p) * x1 (ix2 k q) := by
  unfold k0_pay1
  simp only [shapeCast_self]
  refine (Ideal.matmul_constant_zero_apply dotCC none _ _ (ix2 p q)).trans ?_
  rw [← Equiv.sum_comp (contrEquiv1 dotCC 16 rfl rfl).symm]
  refine Finset.sum_congr rfl fun k _ => ?_
  have hk := contrEquiv1_symm_val dotCC 16 rfl rfl k
  have el : dotCC.lhsIdx (ix2 p q) ((contrEquiv1 dotCC 16 rfl rfl).symm k) = ix2 k p := funext fun a => Fin.ext (by
    match a with
    | ⟨0, _⟩ => exact (lhs_axis0 _ _).trans hk
    | ⟨1, _⟩ => exact lhs_axis1 _ _)
  have er : dotCC.rhsIdx (ix2 p q) ((contrEquiv1 dotCC 16 rfl rfl).symm k) = ix2 k q := funext fun a => Fin.ext (by
    match a with
    | ⟨0, _⟩ => exact (rhs_axis0 _ _).trans hk
    | ⟨1, _⟩ => exact rhs_axis1 _ _)
  rw [el, er]
  rfl

end Cert.KernelIdeal.OuterValue

end
-- ==== Proof.KerPoint.lean ====
/-
  One entry of one block, over variables.

  At grid coordinates (i0, i1) the body's first slice is columns 2048 * i0 … of the first staged array and
  its second slice columns 2048 * i1 … of the second (the offsets the body computes with 32-bit
  multiplications, decided over the sixteen grid points in closed form). So entry (p, q) of the product of
  the two slices is the specification at array entry (2048 * i0 + p, 2048 * i1 + q).
-/
import proofs.«114526_j71408126263792_2_alg».proof.Proof.KerSpec
import proofs.«114526_j71408126263792_2_alg».proof.Proof.KerBody

noncomputable section

namespace Cert.KernelIdeal.OuterValue

open Cert.KernelIdeal Cert.KernelIdeal.Gen Idealize.ShloMosaic Idealize.ShloMosaic.ValueIdx

/-- ONE ENTRY OF ONE BLOCK. `x0`, `x1` are what the two staging buffers hold, equal entry by entry to the
    arrays `A`, `B`; `g` is the array entry that block entry `j` of the block at coordinates `i` lands on. -/
theorem point_eq (A B : FVec Ideal S16x8192 .f32) (x0 x1 : Vec Ideal S16x8192 .f32)
    (h0 : ∀ y : S16x8192.Idx, x0 y = A y) (h1 : ∀ y : S16x8192.Idx, x1 y = B y) (i : grid0.Coords)
    (j : S2048x2048.Idx) (g : S8192x8192.Idx)
    (hg0 : (g 0).val = 2048 * (i 0).val + (j 0).val) (hg1 : (g 1).val = 2048 * (i 1).val + (j 1).val) :
    k0_pay1 (F := Ideal)
        (View.ld x0 (Rect.unit (s := S16x8192) (k0_off1 i) S16x2048.size (k0_off1_inb i)))
        (View.ld x1 (Rect.unit (s := S16x8192) (k0_off2 i) S16x2048.size (k0_off2_inb i))) j
      = outer A B g := by
  obtain ⟨p, q, rfl⟩ : ∃ (p q : Fin 2048), j = ix2 p q := ⟨j 0, j 1, eq_ix2 j⟩
  have hp : (g 0).val = 2048 * (i 0).val + p.val := hg0
  have hq : (g 1).val = 2048 * (i 1).val + q.val := hg1
  have a0 : k0_off1 i 0 = 0 := by rw [k0_off1_eq]; rfl
  have a1 : k0_off1 i 1 = 2048 * (i 0).val := by rw [k0_off1_eq]; rfl
  have b0 : k0_off2 i 0 = 0 := by rw [k0_off2_eq]; rfl
  have b1 : k0_off2 i 1 = 2048 * (i 1).val := by rw [k0_off2_eq]; rfl
  refine (pay_apply _ _ p q).trans ?_
  unfold outer
  refine Finset.sum_congr rfl fun k _ => ?_
  show x0 ((Rect.unit (s := S16x8192) (k0_off1 i) S16x2048.size (k0_off1_inb i)).idx (ix2 k p))
      * x1 ((Rect.unit (s := S16x8192) (k0_off2 i) S16x2048.size (k0_off2_inb i)).idx (ix2 k q))
    = A (ix2 k (⟨(g 0).val, idx2_lt0 g⟩ : Fin 8192)) * B (ix2 k (⟨(g 1).val, idx2_lt1 g⟩ : Fin 8192))
  rw [h0, h1]
  have e0 : (Rect.unit (s := S16x8192) (k0_off1 i) S16x2048.size (k0_off1_inb i)).idx (ix2 k p)
      = ix2 k (⟨(g 0).val, idx2_lt0 g⟩ : Fin 8192) := funext fun a => Fin.ext (by
    match a with
    | ⟨0, _⟩ => show k0_off1 i 0 + 1 * k.val = k.val; omega
    | ⟨1, _⟩ => show k0_off1 i 1 + 1 * p.val = (g 0).val; omega)
  have e1 : (Rect.unit (s := S16x8192) (k0_off2 i) S16x2048.size (k0_off2_inb i)).idx (ix2 k q)
      = ix2 k (⟨(g 1).val, idx2_lt1 g⟩ : Fin 8192) := funext fun a => Fin.ext (by
    match a with
    | ⟨0, _⟩ => show k0_off2 i 0 + 1 * k.val = k.val; omega
    | ⟨1, _⟩ => show k0_off2 i 1 + 1 * q.val = (g 1).val; omega)
  rw [e0, e1]

end Cert.KernelIdeal.OuterValue

end
-- ==== Proof.KerValue.lean ====
/-
  From blocks to the array, and the run.

  The kernel runs its body at the sixteen points of a 4 x 4 grid. At point (i0, i1) the two input windows
  hold the WHOLE staged 16 x 8192 arrays (their one block, at block index (0, 0), is the array), and the
  output window's block is the 2048 x 2048 block (i0, i1) of the 8192 x 8192 result, written back at every
  point. The body leaves in that block the inner products of columns 2048 * i0 + p of the first array with
  columns 2048 * i1 + q of the second, which is the specification read through the block; the sixteen blocks
  tile the result (entry (r, s) lies in block (r / 2048, s / 2048)), so the result array ends holding the
  specification.
-/
import proofs.«114526_j71408126263792_2_alg».proof.Proof.Gen.KernelIdeal.Value
import proofs.«114526_j71408126263792_2_alg».proof.Proof.KerPiece
import proofs.«114526_j71408126263792_2_alg».proof.Proof.KerPoint

set_option maxRecDepth 16384

noncomputable section

namespace Cert.KernelIdeal.OuterValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps, decided over the sixteen grid points -/

/-- Both input windows sit at block index (0, 0) at every point; -/
theorem in_index : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- the output window's block index is the point's pair of grid coordinates; -/
theorem out_index : ∀ t : Fin cfg0.N, win0_2.index t (0 : Fin 2) = (grid0.coords t 0).val
    ∧ win0_2.index t (1 : Fin 2) = (grid0.coords t 1).val :=
  (by decide +kernel : ∀ t : Fin grid0.N, _)

/-- and every block index of the 4 x 4 tiling is some point's. -/
theorem out_index_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-! ## The input windows hold the whole staged arrays -/

/-- The first input window's block at any point is the first staged array: its block index is (0, 0) and
    its block has the array's extents. -/
theorem staged0 (c : Dev nD) (t : Fin cfg0.N) (y : S16x8192.Idx) :
    (iblk m c 0 t : Vec Ideal S16x8192 .f32) y = (V m c main_v108 : S16x8192.Idx → Ideal .f32) y := by
  obtain ⟨e0, e1, -, -⟩ := in_index t
  unfold iblk
  rw [View.read_apply]
  show V m c main_v108 (((cfg0.win 0).blk t).view.emb y) = V m c main_v108 y
  refine congrArg (V m c main_v108 : S16x8192.Idx → Ideal .f32) (funext fun a => Fin.ext ?_)
  match a with
  | ⟨0, _⟩ => show win0_0.index t (0 : Fin 2) * 16 + 1 * (y 0).val = (y 0).val; omega
  | ⟨1, _⟩ => show win0_0.index t (1 : Fin 2) * 8192 + 1 * (y 1).val = (y 1).val; omega

/-- The second input window's block at any point is the second staged array. -/
theorem staged1 (c : Dev nD) (t : Fin cfg0.N) (y : S16x8192.Idx) :
    (iblk m c 1 t : Vec Ideal S16x8192 .f32) y = (V m c main_v109 : S16x8192.Idx → Ideal .f32) y := by
  obtain ⟨-, -, e0, e1⟩ := in_index t
  unfold iblk
  rw [View.read_apply]
  show V m c main_v109 (((cfg0.win 1).blk t).view.emb y) = V m c main_v109 y
  refine congrArg (V m c main_v109 : S16x8192.Idx → Ideal .f32) (funext fun a => Fin.ext ?_)
  match a with
  | ⟨0, _⟩ => show win0_1.index t (0 : Fin 2) * 16 + 1 * (y 0).val = (y 0).val; omega
  | ⟨1, _⟩ => show win0_1.index t (1 : Fin 2) * 8192 + 1 * (y 1).val = (y 1).val; omega

/-! ## What each point writes back -/

/-- WHAT POINT `t` WRITES BACK is block `t` of the specification of the two staged arrays: block entry
    (p, q) lands on array entry (2048 * i0 + p, 2048 * i1 + q). -/
theorem flushed_eq (c : Dev nD) (t : Fin cfg0.N) :
    (dats m 0 c).flushed 2 t
      = ((cfg0.win 2).blk t).view.read (Elt Ideal) (outer (V m c main_v108) (V m c main_v109)) := by
  rw [Value.flushed2_A m c t,
    out_eq c (grid0.coords t) (ms0_0 t) (hs0_0 t) (ms0_1 t) (hs0_1 t) (ms0_2 t) (hs0_2 t) (iblk m c 0 t) (iblk m c 1 t)]
  obtain ⟨e0, e1⟩ := out_index t
  funext j
  refine point_eq (V m c main_v108) (V m c main_v109) (iblk m c 0 t) (iblk m c 1 t) (staged0 m c t) (staged1 m c t)
    (grid0.coords t) ((cfg0.win 2).xinj (grid0.coords t) j) (((cfg0.win 2).blk t).view.emb j) ?_ ?_
  · show win0_2.index t (0 : Fin 2) * 2048 + 1 * (j 0).val = 2048 * (grid0.coords t 0).val + (j 0).val
    omega
  · show win0_2.index t (1 : Fin 2) * 2048 + 1 * (j 1).val = 2048 * (grid0.coords t 1).val + (j 1).val
    omega

/-! ## The sixteen blocks tile the result -/

/-- An entry of the result is in point `t`'s block iff each coordinate is in the block's range on its axis. -/
theorem mem_blk (t : Fin cfg0.N) (i : S8192x8192.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v110).slice (win0_2.rect t)).set ↔ _
  rw [View.set_slice_whole, Rect.mem_set_unit]
  exact Iff.rfl

/-- Entry (r, s) is in the block of the point whose coordinates are (r / 2048, s / 2048), and every point
    writes its block back. -/
theorem covered (i : S8192x8192.Idx) :
    ∃ t : Fin cfg0.N, (cfg0.win 2).flush t = true ∧ i ∈ ((cfg0.win 2).blk t).view.set := by
  have hi0 : (i 0).val < 8192 := idx2_lt0 i
  have hi1 : (i 1).val < 8192 := idx2_lt1 i
  obtain ⟨t, ht⟩ := out_index_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 2048 ≤ (i 1).val ∧ (i 1).val < win0_2.index t (1 : Fin 2) * 2048 + 2048
    omega

/-- THE RESULT ARRAY after the run is the specification of the two staged arrays. -/
theorem final (c : Dev nD) :
    (dats m 0 c).arrAt 2 cfg0.N = outer (V m c main_v108) (V m c main_v109) :=
  (dats m 0 c).arrAt_eq_of_cover 2 (outer (V m c main_v108) (V m c main_v109)) (fun t _ => flushed_eq m c t) covered

/-! ## The run, read -/

/-- Every weakly fair execution of the program terminates with the result array at the specification of
    the two arrays the host operations staged, and the arguments unchanged. -/
theorem run : θ_run (defs (F := Ideal)) (onTc (τ := τ) (main (F := Ideal))) ⟨m, fun _ => 0, ρ⟩ fun r => ∀ c : Dev nD,
      r.2.mem ((c : Thread nD τ).loc main_v110) = outer (Gen.V m c main_v108) (Gen.V m c main_v109)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.OuterValue

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«114526_j71408126263792_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.Circuit.lean ====
/-
  The matrices of the four-qubit circuit, as functions of the six rotation angles and of the constant gate matrices,
  over the extended reals — and the fact that all their entries are real numbers when the angles are.

  A rotation gate RY(θ) is the 2×2 matrix [[cos(θ/2), -sin(θ/2)], [sin(θ/2), cos(θ/2)]]; a layer of the circuit is a
  Kronecker product of four 2×2 factors (or of 2×2 and 4×4 ones) to a 16×16 matrix; the fifth layer is a fixed
  permutation of qubit axes applied to such a product (the 16×16 matrix viewed as a 2×…×2 array of eight axes, with
  axes 1, 2 and axes 5, 6 exchanged); the circuit's unitary is the product of the five layers, and the observable is
  the Kronecker product of three 2×2 identities and one diagonal sign matrix.  Every entry is built from cosines and
  sines of real numbers and from the constant matrices' entries by sums and products, so every entry is real.
-/
import proofs.«114526_j71408126263792_2_alg».proof.Proof.LibRealEntries
import proofs.«114526_j71408126263792_2_alg».proof.Proof.LibDotNN
import Idealize.ShloMosaic.PureOps

noncomputable section

namespace Cert.Circuit

open Idealize.ShloMosaic Cert.RealEntries

abbrev S_ : Shape := ⟨0, ![]⟩
abbrev S1 : Shape := ⟨1, ![1]⟩
abbrev S2 : Shape := ⟨1, ![2]⟩
abbrev S1x2 : Shape := ⟨2, ![1, 2]⟩
abbrev S2x2 : Shape := ⟨2, ![2, 2]⟩
abbrev S4x4 : Shape := ⟨2, ![4, 4]⟩
abbrev S8x8 : Shape := ⟨2, ![8, 8]⟩
abbrev S16x16 : Shape := ⟨2, ![16, 16]⟩
abbrev S16x8192 : Shape := ⟨2, ![16, 8192]⟩
abbrev S8192x16 : Shape := ⟨2, ![8192, 16]⟩
abbrev S8192x8192 : Shape := ⟨2, ![8192, 8192]⟩
abbrev Q8 : Shape := ⟨8, ![2, 2, 2, 2, 2, 2, 2, 2]⟩

/-! ### The Kronecker product of a 2×2 matrix with a 2×2 matrix -/

theorem kron22_fa : (⟨2, ![2, 2]⟩ : Shape).BroadcastsInDim ⟨4, ![2, 1, 2, 1]⟩ (![0, 2] : Fin 2 → Fin 4) := by decide
theorem kron22_fb : (⟨2, ![2, 2]⟩ : Shape).BroadcastsInDim ⟨4, ![1, 2, 1, 2]⟩ (![1, 3] : Fin 2 → Fin 4) := by decide
theorem kron22_fa' : (⟨4, ![2, 1, 2, 1]⟩ : Shape).BroadcastsInDim ⟨4, ![2, 2, 2, 2]⟩ (![0, 1, 2, 3] : Fin 4 → Fin 4) := by decide
theorem kron22_fb' : (⟨4, ![1, 2, 1, 2]⟩ : Shape).BroadcastsInDim ⟨4, ![2, 2, 2, 2]⟩ (![0, 1, 2, 3] : Fin 4 → Fin 4) := by decide
theorem kron22_fc : (⟨4, ![2, 2, 2, 2]⟩ : Shape).ShapeCasts ⟨2, ![4, 4]⟩ := by decide

/-- A ⊗ B: entry (i·2 + k, j·2 + l) is A[i,j]·B[k,l] — both factors spread over the four axes (i, k, j, l), multiplied
    entry by entry, and the axis pairs (i, k) and (j, l) flattened. -/
def kron22 (A : FVec Ideal ⟨2, ![2, 2]⟩ .f32) (B : FVec Ideal ⟨2, ![2, 2]⟩ .f32) : FVec Ideal ⟨2, ![4, 4]⟩ .f32 :=
  shapeCast ⟨2, ![4, 4]⟩
    (mulf (broadcastInDim ⟨4, ![2, 2, 2, 2]⟩ ![0, 1, 2, 3] kron22_fa' (broadcastInDim ⟨4, ![2, 1, 2, 1]⟩ ![0, 2] kron22_fa A))
      (broadcastInDim ⟨4, ![2, 2, 2, 2]⟩ ![0, 1, 2, 3] kron22_fb' (broadcastInDim ⟨4, ![1, 2, 1, 2]⟩ ![1, 3] kron22_fb B)))
    kron22_fc

theorem kron22_real {A : FVec Ideal ⟨2, ![2, 2]⟩ .f32} {B : FVec Ideal ⟨2, ![2, 2]⟩ .f32} (hA : AllReal A) (hB : AllReal B) :
    AllReal (kron22 A B) :=
  AllReal.of_shapeCast (AllReal.of_mulf (AllReal.of_broadcastInDim (AllReal.of_broadcastInDim hA _ _) _ _)
    (AllReal.of_broadcastInDim (AllReal.of_broadcastInDim hB _ _) _ _)) _

/-! ### The Kronecker product of a 4×4 matrix with a 2×2 matrix -/

theorem kron42_fa : (⟨2, ![4, 4]⟩ : Shape).BroadcastsInDim ⟨4, ![4, 1, 4, 1]⟩ (![0, 2] : Fin 2 → Fin 4) := by decide
theorem kron42_fb : (⟨2, ![2, 2]⟩ : Shape).BroadcastsInDim ⟨4, ![1, 2, 1, 2]⟩ (![1, 3] : Fin 2 → Fin 4) := by decide
theorem kron42_fa' : (⟨4, ![4, 1, 4, 1]⟩ : Shape).BroadcastsInDim ⟨4, ![4, 2, 4, 2]⟩ (![0, 1, 2, 3] : Fin 4 → Fin 4) := by decide
theorem kron42_fb' : (⟨4, ![1, 2, 1, 2]⟩ : Shape).BroadcastsInDim ⟨4, ![4, 2, 4, 2]⟩ (![0, 1, 2, 3] : Fin 4 → Fin 4) := by decide
theorem kron42_fc : (⟨4, ![4, 2, 4, 2]⟩ : Shape).ShapeCasts ⟨2, ![8, 8]⟩ := by decide

/-- A ⊗ B: entry (i·2 + k, j·2 + l) is A[i,j]·B[k,l] — both factors spread over the four axes (i, k, j, l), multiplied
    entry by entry, and the axis pairs (i, k) and (j, l) flattened. -/
def kron42 (A : FVec Ideal ⟨2, ![4, 4]⟩ .f32) (B : FVec Ideal ⟨2, ![2, 2]⟩ .f32) : FVec Ideal ⟨2, ![8, 8]⟩ .f32 :=
  shapeCast ⟨2, ![8, 8]⟩
    (mulf (broadcastInDim ⟨4, ![4, 2, 4, 2]⟩ ![0, 1, 2, 3] kron42_fa' (broadcastInDim ⟨4, ![4, 1, 4, 1]⟩ ![0, 2] kron42_fa A))
      (broadcastInDim ⟨4, ![4, 2, 4, 2]⟩ ![0, 1, 2, 3] kron42_fb' (broadcastInDim ⟨4, ![1, 2, 1, 2]⟩ ![1, 3] kron42_fb B)))
    kron42_fc

theorem kron42_real {A : FVec Ideal ⟨2, ![4, 4]⟩ .f32} {B : FVec Ideal ⟨2, ![2, 2]⟩ .f32} (hA : AllReal A) (hB : AllReal B) :
    AllReal (kron42 A B) :=
  AllReal.of_shapeCast (AllReal.of_mulf (AllReal.of_broadcastInDim (AllReal.of_broadcastInDim hA _ _) _ _)
    (AllReal.of_broadcastInDim (AllReal.of_broadcastInDim hB _ _) _ _)) _

/-! ### The Kronecker product of a 8×8 matrix with a 2×2 matrix -/

theorem kron82_fa : (⟨2, ![8, 8]⟩ : Shape).BroadcastsInDim ⟨4, ![8, 1, 8, 1]⟩ (![0, 2] : Fin 2 → Fin 4) := by decide
theorem kron82_fb : (⟨2, ![2, 2]⟩ : Shape).BroadcastsInDim ⟨4, ![1, 2, 1, 2]⟩ (![1, 3] : Fin 2 → Fin 4) := by decide
theorem kron82_fa' : (⟨4, ![8, 1, 8, 1]⟩ : Shape).BroadcastsInDim ⟨4, ![8, 2, 8, 2]⟩ (![0, 1, 2, 3] : Fin 4 → Fin 4) := by decide
theorem kron82_fb' : (⟨4, ![1, 2, 1, 2]⟩ : Shape).BroadcastsInDim ⟨4, ![8, 2, 8, 2]⟩ (![0, 1, 2, 3] : Fin 4 → Fin 4) := by decide
theorem kron82_fc : (⟨4, ![8, 2, 8, 2]⟩ : Shape).ShapeCasts ⟨2, ![16, 16]⟩ := by decide

/-- A ⊗ B: entry (i·2 + k, j·2 + l) is A[i,j]·B[k,l] — both factors spread over the four axes (i, k, j, l), multiplied
    entry by entry, and the axis pairs (i, k) and (j, l) flattened. -/
def kron82 (A : FVec Ideal ⟨2, ![8, 8]⟩ .f32) (B : FVec Ideal ⟨2, ![2, 2]⟩ .f32) : FVec Ideal ⟨2, ![16, 16]⟩ .f32 :=
  shapeCast ⟨2, ![16, 16]⟩
    (mulf (broadcastInDim ⟨4, ![8, 2, 8, 2]⟩ ![0, 1, 2, 3] kron82_fa' (broadcastInDim ⟨4, ![8, 1, 8, 1]⟩ ![0, 2] kron82_fa A))
      (broadcastInDim ⟨4, ![8, 2, 8, 2]⟩ ![0, 1, 2, 3] kron82_fb' (broadcastInDim ⟨4, ![1, 2, 1, 2]⟩ ![1, 3] kron82_fb B)))
    kron82_fc

theorem kron82_real {A : FVec Ideal ⟨2, ![8, 8]⟩ .f32} {B : FVec Ideal ⟨2, ![2, 2]⟩ .f32} (hA : AllReal A) (hB : AllReal B) :
    AllReal (kron82 A B) :=
  AllReal.of_shapeCast (AllReal.of_mulf (AllReal.of_broadcastInDim (AllReal.of_broadcastInDim hA _ _) _ _)
    (AllReal.of_broadcastInDim (AllReal.of_broadcastInDim hB _ _) _ _)) _

/-! ### The Kronecker product of a 4×4 matrix with a 4×4 matrix -/

theorem kron44_fa : (⟨2, ![4, 4]⟩ : Shape).BroadcastsInDim ⟨4, ![4, 1, 4, 1]⟩ (![0, 2] : Fin 2 → Fin 4) := by decide
theorem kron44_fb : (⟨2, ![4, 4]⟩ : Shape).BroadcastsInDim ⟨4, ![1, 4, 1, 4]⟩ (![1, 3] : Fin 2 → Fin 4) := by decide
theorem kron44_fa' : (⟨4, ![4, 1, 4, 1]⟩ : Shape).BroadcastsInDim ⟨4, ![4, 4, 4, 4]⟩ (![0, 1, 2, 3] : Fin 4 → Fin 4) := by decide
theorem kron44_fb' : (⟨4, ![1, 4, 1, 4]⟩ : Shape).BroadcastsInDim ⟨4, ![4, 4, 4, 4]⟩ (![0, 1, 2, 3] : Fin 4 → Fin 4) := by decide
theorem kron44_fc : (⟨4, ![4, 4, 4, 4]⟩ : Shape).ShapeCasts ⟨2, ![16, 16]⟩ := by decide

/-- A ⊗ B: entry (i·4 + k, j·4 + l) is A[i,j]·B[k,l] — both factors spread over the four axes (i, k, j, l), multiplied
    entry by entry, and the axis pairs (i, k) and (j, l) flattened. -/
def kron44 (A : FVec Ideal ⟨2, ![4, 4]⟩ .f32) (B : FVec Ideal ⟨2, ![4, 4]⟩ .f32) : FVec Ideal ⟨2, ![16, 16]⟩ .f32 :=
  shapeCast ⟨2, ![16, 16]⟩
    (mulf (broadcastInDim ⟨4, ![4, 4, 4, 4]⟩ ![0, 1, 2, 3] kron44_fa' (broadcastInDim ⟨4, ![4, 1, 4, 1]⟩ ![0, 2] kron44_fa A))
      (broadcastInDim ⟨4, ![4, 4, 4, 4]⟩ ![0, 1, 2, 3] kron44_fb' (broadcastInDim ⟨4, ![1, 4, 1, 4]⟩ ![1, 3] kron44_fb B)))
    kron44_fc

theorem kron44_real {A : FVec Ideal ⟨2, ![4, 4]⟩ .f32} {B : FVec Ideal ⟨2, ![4, 4]⟩ .f32} (hA : AllReal A) (hB : AllReal B) :
    AllReal (kron44 A B) :=
  AllReal.of_shapeCast (AllReal.of_mulf (AllReal.of_broadcastInDim (AllReal.of_broadcastInDim hA _ _) _ _)
    (AllReal.of_broadcastInDim (AllReal.of_broadcastInDim hB _ _) _ _)) _

/-! ### A rotation gate -/

theorem ry_f0 : S1.ShapeCasts S_ := by decide
theorem ry_f1 : S_.BroadcastsInDim S1 (![] : Fin 0 → Fin 1) := by decide
theorem ry_f2 : Shape.Concatenates [S1, S1] S2 0 := by decide
theorem ry_f3 : S2.BroadcastsInDim S1x2 (![1] : Fin 1 → Fin 2) := by decide
theorem ry_f4 : Shape.Concatenates [S1x2, S1x2] S2x2 0 := by decide

/-- Half the angle, as a scalar. -/
def half (θ : FVec Ideal S1 .f32) : FVec Ideal S_ .f32 :=
  Host.divf (shapeCast S_ θ ry_f0) (constant S_ .f32 0x40000000#32)

/-- A row [x, y] of two scalars. -/
def row (x y : FVec Ideal S_ .f32) : FVec Ideal S2 .f32 :=
  concatenate S2 0 [⟨S1, broadcastInDim S1 ![] ry_f1 x⟩, ⟨S1, broadcastInDim S1 ![] ry_f1 y⟩] ry_f2

/-- RY(θ) = [[cos(θ/2), -sin(θ/2)], [sin(θ/2), cos(θ/2)]]. -/
def ry (θ : FVec Ideal S1 .f32) : FVec Ideal S2x2 .f32 :=
  concatenate S2x2 0
    [⟨S1x2, broadcastInDim S1x2 ![1] ry_f3 (row (Host.cos (half θ)) (Host.negf (Host.sin (half θ))))⟩,
     ⟨S1x2, broadcastInDim S1x2 ![1] ry_f3 (row (Host.sin (half θ)) (Host.cos (half θ)))⟩] ry_f4

theorem half_real {θ : FVec Ideal S1 .f32} (h : AllReal θ) : AllReal (half θ) :=
  AllReal.of_hostDivTwo (AllReal.of_shapeCast h _)

theorem row_real {x y : FVec Ideal S_ .f32} (hx : AllReal x) (hy : AllReal y) : AllReal (row x y) :=
  AllReal.of_concatenate₂ 0 (AllReal.of_broadcastInDim hx _ _) (AllReal.of_broadcastInDim hy _ _) ry_f2

theorem ry_real {θ : FVec Ideal S1 .f32} (h : AllReal θ) : AllReal (ry θ) :=
  AllReal.of_concatenate₂ 0
    (AllReal.of_broadcastInDim (row_real (AllReal.of_hostCos (half_real h)) (AllReal.of_hostNegf (AllReal.of_hostSin (half_real h)))) _ _)
    (AllReal.of_broadcastInDim (row_real (AllReal.of_hostSin (half_real h)) (AllReal.of_hostCos (half_real h))) _ _) ry_f4

/-! ### The qubit-axis permutation of the fifth layer -/

theorem perm_f0 : S16x16.ShapeCasts Q8 := by decide
theorem perm_f1 : Q8.Transposes [0, 2, 1, 3, 4, 5, 6, 7] Q8 := by decide
theorem perm_f2 : Q8.Transposes [0, 1, 2, 3, 4, 6, 5, 7] Q8 := by decide
theorem perm_f3 : Q8.ShapeCasts S16x16 := by decide

/-- The 16×16 matrix as an array of eight two-valued axes, with axes 1, 2 exchanged and axes 5, 6 exchanged. -/
def swapQubits (A : FVec Ideal S16x16 .f32) : FVec Ideal S16x16 .f32 :=
  shapeCast S16x16 (transpose Q8 [0, 1, 2, 3, 4, 6, 5, 7] (transpose Q8 [0, 2, 1, 3, 4, 5, 6, 7] (shapeCast Q8 A perm_f0) perm_f1) perm_f2)
    perm_f3

theorem swapQubits_real {A : FVec Ideal S16x16 .f32} (h : AllReal A) : AllReal (swapQubits A) :=
  AllReal.of_shapeCast (AllReal.of_transpose (AllReal.of_transpose (AllReal.of_shapeCast h _) _ _) _ _) _

/-! ### The circuit -/

/-- The product of two 16×16 matrices. -/
def mm (A B : FVec Ideal S16x16 .f32) : FVec Ideal S16x16 .f32 := Host.dotGeneral (DotDims.plain 16 16 16) none A B

/-- A 16×16 matrix applied to the batch of 8192 state columns. -/
def apply (A : FVec Ideal S16x16 .f32) (X : FVec Ideal S16x8192 .f32) : FVec Ideal S16x8192 .f32 :=
  Host.dotGeneral (DotDims.plain 16 16 8192) none A X

variable (cX cI cZ : FVec Ideal S2x2 .f32) (cCN : FVec Ideal S4x4 .f32) (θ1 θ2 θ3 θ4 θ5 θ6 : FVec Ideal S1 .f32)

def layer1 : FVec Ideal S16x16 .f32 := kron82 (kron42 (kron22 cX cX) (ry θ1)) (ry θ2)
def layer2 : FVec Ideal S16x16 .f32 := kron44 (kron22 (ry θ3) (ry θ4)) cCN
def layer3 : FVec Ideal S16x16 .f32 := kron82 (kron42 cCN cI) (ry θ5)
def layer4 : FVec Ideal S16x16 .f32 := kron82 (kron42 (kron22 cI (ry θ6)) cI) cI
def layer5 : FVec Ideal S16x16 .f32 := swapQubits (kron44 (kron22 cI cI) cCN)

/-- The circuit's unitary: the five layers multiplied, the fifth leftmost. -/
def unitary : FVec Ideal S16x16 .f32 :=
  mm (mm (mm (mm (layer5 cI cCN) (layer4 cI θ6)) (layer3 cI cCN θ5)) (layer2 cCN θ3 θ4)) (layer1 cX θ1 θ2)

/-- The observable: identity on three qubits, the sign matrix on the last. -/
def observable : FVec Ideal S16x16 .f32 := kron82 (kron42 (kron22 cI cI) cI) cZ

/-! ### The expectation matrix -/

theorem tr_f : S16x8192.Transposes [1, 0] S8192x16 := by decide

/-- The reference's result: the transposed transformed states times the observable applied to them,
    (U·X)ᵀ · (M · (U·X)). -/
def expectation (U M : FVec Ideal S16x16 .f32) (X : FVec Ideal S16x8192 .f32) : FVec Ideal S8192x8192 .f32 :=
  Host.dotGeneral (DotDims.plain 8192 16 8192) none (transpose S8192x16 [1, 0] (apply U X) tr_f) (apply M (apply U X))

/-! ### Every matrix of the circuit has real entries -/

section Real

variable {cX cI cZ : FVec Ideal S2x2 .f32} {cCN : FVec Ideal S4x4 .f32} {θ1 θ2 θ3 θ4 θ5 θ6 : FVec Ideal S1 .f32}

open Idealize.ShloMosaic.ValueIdx in
/-- A product of 16×16 matrices of real numbers has real entries. -/
theorem mm_real {A B : FVec Ideal S16x16 .f32} (hA : AllReal A) (hB : AllReal B) : AllReal (mm A B) :=
  allReal_of_sum (fun p k => A (ix2 p k)) (fun k q => B (ix2 k q)) (fun _ _ => hA _) (fun _ _ => hB _)
    fun p q => Cert.DotNN.dotGeneral_apply (DotDims.plain 16 16 16) rfl none A B p q

theorem unitary_real (hX : AllReal cX) (hI : AllReal cI) (hCN : AllReal cCN)
    (h1 : AllReal θ1) (h2 : AllReal θ2) (h3 : AllReal θ3) (h4 : AllReal θ4) (h5 : AllReal θ5) (h6 : AllReal θ6) :
    AllReal (unitary cX cI cCN θ1 θ2 θ3 θ4 θ5 θ6) :=
  mm_real (mm_real (mm_real (mm_real
    (swapQubits_real (kron44_real (kron22_real hI hI) hCN))
    (kron82_real (kron42_real (kron22_real hI (ry_real h6)) hI) hI))
    (kron82_real (kron42_real hCN hI) (ry_real h5)))
    (kron44_real (kron22_real (ry_real h3) (ry_real h4)) hCN))
    (kron82_real (kron42_real (kron22_real hX hX) (ry_real h1)) (ry_real h2))

theorem observable_real (hI : AllReal cI) (hZ : AllReal cZ) : AllReal (observable cI cZ) :=
  kron82_real (kron42_real (kron22_real hI hI) hI) hZ

end Real

end Cert.Circuit

end
-- ==== Proof.KerHost.lean ====
/-
  What the kernel's program has computed on the host when the Pallas region is entered.

  Before the region @main computes the circuit's unitary U and the observable M from the six angles (the same
  operations as the reference's), then M·U, and the two arrays the region stages: α = U·X and β = (M·U)·X.  Reading the
  fold of the host operations at those two buffers, operation by operation, gives the composed terms of the launch
  contents of the arguments; by unfolding the circuit's definitions they are U·X and (M·U)·X.
-/
import proofs.«114526_j71408126263792_2_alg».proof.Proof.Gen.KernelIdeal.Frame.Runs
import proofs.«114526_j71408126263792_2_alg».proof.Proof.Circuit
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

/-- The constant gate matrices the program spells as tables of float patterns: the bit flip X, -/
abbrev tabX : FVec Ideal S2x2 .f32 := fun i => FloatOps.ofBits .f32 (lit0 (S2x2.rowMajor i))
/-- the controlled NOT, -/
abbrev tabCN : FVec Ideal S4x4 .f32 := fun i => FloatOps.ofBits .f32 (lit1 (S4x4.rowMajor i))
/-- the identity, -/
abbrev tabI : FVec Ideal S2x2 .f32 := fun i => FloatOps.ofBits .f32 (lit2 (S2x2.rowMajor i))
/-- and the sign matrix Z. -/
abbrev tabZ : FVec Ideal S2x2 .f32 := fun i => FloatOps.ofBits .f32 (lit3 (S2x2.rowMajor i))

variable (m : (ℓ : Loc nD τ sig) → Buf (Elt Ideal) ℓ)

/-- The circuit's unitary of the launched angles. -/
abbrev U (c : Dev nD) : FVec Ideal S16x16 .f32 :=
  Cert.Circuit.unitary tabX tabI tabCN (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

set_option maxRecDepth 65536 in
set_option maxHeartbeats 4000000 in
/-- The first staged array is α = U·X. -/
theorem V_alpha (c : Dev nD) :
    (V m c main_v108 : S16x8192.Idx → EReal) = Cert.Circuit.apply (U m c) (m ((c : Thread nD τ).loc main_arg0)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 65536 in
set_option maxHeartbeats 4000000 in
/-- The second staged array is β = (M·U)·X. -/
theorem V_beta (c : Dev nD) :
    (V m c main_v109 : S16x8192.Idx → EReal)
      = Cert.Circuit.apply (Cert.Circuit.mm (Cert.Circuit.observable tabI tabZ) (U m c)) (m ((c : Thread nD τ).loc main_arg0)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

end Cert.KernelIdeal.HostValue

end
-- ==== Proof.RefOps.lean ====
/-
  The reference program's @main as one straight line of host operations.

  @main applies, in order, the constant gate matrices, six rotation gates (each: halve the angle, take the cosine and
  the sine, negate, and lay the four numbers out as a 2×2 matrix by broadcasts and concatenations), fifteen
  Kronecker products (each a call of a six-operation function: two broadcasts per factor, an entrywise product, a
  reshape), a qubit-axis permutation (reshape, two transposes, reshape) and eight matrix products.  Here the calls are
  opened into their operations on the calls' own buffers, so that @main is literally a sequence of 196 operations; every
  weakly fair execution then terminates with each buffer at the fold of those operations over the launch contents.
  The list is cut into stretches where a call begins or ends and where the printed text cuts @main into windows.
-/
import proofs.«114526_j71408126263792_2_alg».proof.Proof.Gen.ReferenceIdeal
import Idealize.ShloMosaic.Lib.StableHlo.Run
import Idealize.ShloMosaic.Lib.Pipeline.Regions

noncomputable section

namespace Cert.ReferenceIdeal.HostRun

open Cert.ReferenceIdeal Cert.ReferenceIdeal.Gen Idealize.ShloMosaic Idealize.ShloMosaic.TcCoe Idealize.SL.Sem

/-! ## Sequences of stretches -/

section General

variable {nD : Nat} {τ : Topo} {sig : RefSig} {Val : EltTy → Type} {Λ : Labels}

/-- Stretches run one after the other are their concatenation run as one line. -/
theorem chain_seq (ls : List (List (HloOp τ sig Val))) :
    (Pipeline.chain (ls.map fun l => (StableHlo.seq l : Prog (TpuEff nD τ sig Val Λ .tc) PUnit))) = StableHlo.seq ls.flatten := by
  induction ls with
  | nil => rfl
  | cons l ls ih => rw [List.map_cons, Pipeline.chain_cons, ih, List.flatten_cons, StableHlo.seq_append]

/-- A property of every operation of every stretch holds of every operation of the whole line. -/
theorem forall_flatten {α : Type} {p : α → Prop} (ls : List (List α)) (h : ∀ l ∈ ls, l.Forall p) : ls.flatten.Forall p :=
  List.forall_iff_forall_mem.mpr fun a ha => by
    obtain ⟨l, hl, hal⟩ := List.mem_flatten.mp ha
    exact List.forall_iff_forall_mem.mp (h l hl) a hal

end General

variable {F : FTy → Type} [FloatOps F]

/-! ## The stretches -/

/-- 4 operations of @main's window 0, in order. -/
abbrev w0_0 : List (HloOp τ sig (Elt F)) :=
  [ StableHlo.nullary main_cst (fun i => FloatOps.ofBits .f32 (lit0 (S2x2.rowMajor i))),
    StableHlo.nullary main_cst_0 (fun i => FloatOps.ofBits .f32 (lit1 (S4x4.rowMajor i))),
    StableHlo.nullary main_cst_1 (fun i => FloatOps.ofBits .f32 (lit2 (S2x2.rowMajor i))),
    StableHlo.nullary main_cst_2 (fun i => FloatOps.ofBits .f32 (lit3 (S2x2.rowMajor i))) ]
theorem w0_0_sub : (w0_0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub ..⟩
theorem w0_0_fresh : (w0_0 : List (HloOp τ sig (Elt F))).Forall fun op => op.fresh = ∅ := by
  simp only [List.Forall]; repeat' constructor

/-- the six operations of the Kronecker-product function called at this point (main_call0), in order. -/
abbrev w0_1 : List (HloOp τ sig (Elt F)) :=
  [ StableHlo.TRef.unary (.of main_cst : StableHlo.TRef sig ⟨S2x2, .f32⟩) main_call0.v0 (broadcastInDim S2x1x2x1 ![0, 2] bcast_S2x2_S2x1x2x1_0_2),
    StableHlo.TRef.unary (.of main_cst : StableHlo.TRef sig ⟨S2x2, .f32⟩) main_call0.v1 (broadcastInDim S1x2x1x2 ![1, 3] bcast_S2x2_S1x2x1x2_1_3),
    StableHlo.TRef.unary main_call0.v0 main_call0.v2 (broadcastInDim S2x2x2x2 ![0, 1, 2, 3] bcast_S2x1x2x1_S2x2x2x2_0_1_2_3),
    StableHlo.TRef.unary main_call0.v1 main_call0.v3 (broadcastInDim S2x2x2x2 ![0, 1, 2, 3] bcast_S1x2x1x2_S2x2x2x2_0_1_2_3),
    StableHlo.TRef.binary main_call0.v2 main_call0.v3 main_call0.v4 mulf,
    StableHlo.TRef.reshape main_call0.v4 main_call0.v5 rfl shapeCasts_S2x2x2x2_S4x4 ]
theorem w0_1_sub : (w0_1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w0_1_fresh : (w0_1 : List (HloOp τ sig (Elt F))).Forall fun op => op.fresh = ∅ := by
  simp only [List.Forall]; repeat' constructor

/-- 15 operations of @main's window 0, in order. -/
abbrev w0_2 : List (HloOp τ sig (Elt F)) :=
  [ StableHlo.reshape main_arg1 main_v1 rfl shapeCasts_S1_S_,
    StableHlo.nullary main_cst_3 (constant S_ .f32 0x40000000#32),
    StableHlo.binary main_v1 main_cst_3 main_v2 (Host.divf : (⟨S_, .f32⟩ : BufTy).Contents (Elt F) → (⟨S_, .f32⟩ : BufTy).Contents (Elt F) → (⟨S_, .f32⟩ : BufTy).Contents (Elt F)),
    StableHlo.unary main_v2 main_v3 (Host.cos : (⟨S_, .f32⟩ : BufTy).Contents (Elt F) → (⟨S_, .f32⟩ : BufTy).Contents (Elt F)),
    StableHlo.unary main_v2 main_v4 (Host.sin : (⟨S_, .f32⟩ : BufTy).Contents (Elt F) → (⟨S_, .f32⟩ : BufTy).Contents (Elt F)),
    StableHlo.unary main_v4 main_v5 (Host.negf : (⟨S_, .f32⟩ : BufTy).Contents (Elt F) → (⟨S_, .f32⟩ : BufTy).Contents (Elt F)),
    StableHlo.unary main_v3 main_v6 (broadcastInDim S1 ![] bcast_S_S1 : (⟨S_, .f32⟩ : BufTy).Contents (Elt F) → (⟨S1, .f32⟩ : BufTy).Contents (Elt F)),
    StableHlo.unary main_v5 main_v7 (broadcastInDim S1 ![] bcast_S_S1 : (⟨S_, .f32⟩ : BufTy).Contents (Elt F) → (⟨S1, .f32⟩ : BufTy).Contents (Elt F)),
    StableHlo.binary main_v6 main_v7 main_v8 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v4 main_v9 (broadcastInDim S1 ![] bcast_S_S1 : (⟨S_, .f32⟩ : BufTy).Contents (Elt F) → (⟨S1, .f32⟩ : BufTy).Contents (Elt F)),
    StableHlo.unary main_v3 main_v10 (broadcastInDim S1 ![] bcast_S_S1 : (⟨S_, .f32⟩ : BufTy).Contents (Elt F) → (⟨S1, .f32⟩ : BufTy).Contents (Elt F)),
    StableHlo.binary main_v9 main_v10 main_v11 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v8 main_v12 (broadcastInDim S1x2 ![1] bcast_S2_S1x2_1 : (⟨S2, .f32⟩ : BufTy).Contents (Elt F) → (⟨S1x2, .f32⟩ : BufTy).Contents (Elt F)),
    StableHlo.unary main_v11 main_v13 (broadcastInDim S1x2 ![1] bcast_S2_S1x2_1 : (⟨S2, .f32⟩ : BufTy).Contents (Elt F) → (⟨S1x2, .f32⟩ : BufTy).Contents (Elt F)),
    StableHlo.binary main_v12 main_v13 main_v14 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)) ]
theorem w0_2_sub : (w0_2 : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem w0_2_fresh : (w0_2 : List (HloOp τ sig (Elt F))).Forall fun op => op.fresh = ∅ := by
  simp only [List.Forall]; repeat' constructor

/-- the six operations of the Kronecker-product function called at this point (main_call1), in order. -/
abbrev w0_3 : List (HloOp τ sig (Elt F)) :=
  [ StableHlo.TRef.unary (.of main_v0 : StableHlo.TRef sig ⟨S4x4, .f32⟩) main_call1.v0 (broadcastInDim S4x1x4x1 ![0, 2] bcast_S4x4_S4x1x4x1_0_2),
    StableHlo.TRef.unary (.of main_v14 : StableHlo.TRef sig ⟨S2x2, .f32⟩) main_call1.v1 (broadcastInDim S1x2x1x2 ![1, 3] bcast_S2x2_S1x2x1x2_1_3),
    StableHlo.TRef.unary main_call1.v0 main_call1.v2 (broadcastInDim S4x2x4x2 ![0, 1, 2, 3] bcast_S4x1x4x1_S4x2x4x2_0_1_2_3),
    StableHlo.TRef.unary main_call1.v1 main_call1.v3 (broadcastInDim S4x2x4x2 ![0, 1, 2, 3] bcast_S1x2x1x2_S4x2x4x2_0_1_2_3),
    StableHlo.TRef.binary main_call1.v2 main_call1.v3 main_call1.v4 mulf,
    StableHlo.TRef.reshape main_call1.v4 main_call1.v5 rfl shapeCasts_S4x2x4x2_S8x8 ]
theorem w0_3_sub : (w0_3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w0_3_fresh : (w0_3 : List (HloOp τ sig (Elt F))).Forall fun op => op.fresh = ∅ := by
  simp only [List.Forall]; repeat' constructor

/-- 15 operations of @main's window 0, in order. -/
abbrev w0_4 : List (HloOp τ sig (Elt F)) :=
  [ StableHlo.reshape main_arg2 main_v16 rfl shapeCasts_S1_S_,
    StableHlo.nullary main_cst_4 (constant S_ .f32 0x40000000#32),
    StableHlo.binary main_v16 main_cst_4 main_v17 (Host.divf : (⟨S_, .f32⟩ : BufTy).Contents (Elt F) → (⟨S_, .f32⟩ : BufTy).Contents (Elt F) → (⟨S_, .f32⟩ : BufTy).Contents (Elt F)),
    StableHlo.unary main_v17 main_v18 (Host.cos : (⟨S_, .f32⟩ : BufTy).Contents (Elt F) → (⟨S_, .f32⟩ : BufTy).Contents (Elt F)),
    StableHlo.unary main_v17 main_v19 (Host.sin : (⟨S_, .f32⟩ : BufTy).Contents (Elt F) → (⟨S_, .f32⟩ : BufTy).Contents (Elt F)),
    StableHlo.unary main_v19 main_v20 (Host.negf : (⟨S_, .f32⟩ : BufTy).Contents (Elt F) → (⟨S_, .f32⟩ : BufTy).Contents (Elt F)),
    StableHlo.unary main_v18 main_v21 (broadcastInDim S1 ![] bcast_S_S1 : (⟨S_, .f32⟩ : BufTy).Contents (Elt F) → (⟨S1, .f32⟩ : BufTy).Contents (Elt F)),
    StableHlo.unary main_v20 main_v22 (broadcastInDim S1 ![] bcast_S_S1 : (⟨S_, .f32⟩ : BufTy).Contents (Elt F) → (⟨S1, .f32⟩ : BufTy).Contents (Elt F)),
    StableHlo.binary main_v21 main_v22 main_v23 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v19 main_v24 (broadcastInDim S1 ![] bcast_S_S1 : (⟨S_, .f32⟩ : BufTy).Contents (Elt F) → (⟨S1, .f32⟩ : BufTy).Contents (Elt F)),
    StableHlo.unary main_v18 main_v25 (broadcastInDim S1 ![] bcast_S_S1 : (⟨S_, .f32⟩ : BufTy).Contents (Elt F) → (⟨S1, .f32⟩ : BufTy).Contents (Elt F)),
    StableHlo.binary main_v24 main_v25 main_v26 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v23 main_v27 (broadcastInDim S1x2 ![1] bcast_S2_S1x2_1 : (⟨S2, .f32⟩ : BufTy).Contents (Elt F) → (⟨S1x2, .f32⟩ : BufTy).Contents (Elt F)),
    StableHlo.unary main_v26 main_v28 (broadcastInDim S1x2 ![1] bcast_S2_S1x2_1 : (⟨S2, .f32⟩ : BufTy).Contents (Elt F) → (⟨S1x2, .f32⟩ : BufTy).Contents (Elt F)),
    StableHlo.binary main_v27 main_v28 main_v29 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)) ]
theorem w0_4_sub : (w0_4 : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem w0_4_fresh : (w0_4 : List (HloOp τ sig (Elt F))).Forall fun op => op.fresh = ∅ := by
  simp only [List.Forall]; repeat' constructor

/-- the six operations of the Kronecker-product function called at this point (main_call2), in order. -/
abbrev w0_5 : List (HloOp τ sig (Elt F)) :=
  [ StableHlo.TRef.unary (.of main_v15 : StableHlo.TRef sig ⟨S8x8, .f32⟩) main_call2.v0 (broadcastInDim S8x1x8x1 ![0, 2] bcast_S8x8_S8x1x8x1_0_2),
    StableHlo.TRef.unary (.of main_v29 : StableHlo.TRef sig ⟨S2x2, .f32⟩) main_call2.v1 (broadcastInDim S1x2x1x2 ![1, 3] bcast_S2x2_S1x2x1x2_1_3),
    StableHlo.TRef.unary main_call2.v0 main_call2.v2 (broadcastInDim S8x2x8x2 ![0, 1, 2, 3] bcast_S8x1x8x1_S8x2x8x2_0_1_2_3),
    StableHlo.TRef.unary main_call2.v1 main_call2.v3 (broadcastInDim S8x2x8x2 ![0, 1, 2, 3] bcast_S1x2x1x2_S8x2x8x2_0_1_2_3),
    StableHlo.TRef.binary main_call2.v2 main_call2.v3 main_call2.v4 mulf,
    StableHlo.TRef.reshape main_call2.v4 main_call2.v5 rfl shapeCasts_S8x2x8x2_S16x16 ]
theorem w0_5_sub : (w0_5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w0_5_fresh : (w0_5 : List (HloOp τ sig (Elt F))).Forall fun op => op.fresh = ∅ := by
  simp only [List.Forall]; repeat' constructor

/-- 23 operations of @main's window 0, in order. -/
abbrev w0_6 : List (HloOp τ sig (Elt F)) :=
  [ StableHlo.reshape main_arg3 main_v31 rfl shapeCasts_S1_S_,
    StableHlo.nullary main_cst_5 (constant S_ .f32 0x40000000#32),
    StableHlo.binary main_v31 main_cst_5 main_v32 (Host.divf : (⟨S_, .f32⟩ : BufTy).Contents (Elt F) → (⟨S_, .f32⟩ : BufTy).Contents (Elt F) → (⟨S_, .f32⟩ : BufTy).Contents (Elt F)),
    StableHlo.unary main_v32 main_v33 (Host.cos : (⟨S_, .f32⟩ : BufTy).Contents (Elt F) → (⟨S_, .f32⟩ : BufTy).Contents (Elt F)),
    StableHlo.unary main_v32 main_v34 (Host.sin : (⟨S_, .f32⟩ : BufTy).Contents (Elt F) → (⟨S_, .f32⟩ : BufTy).Contents (Elt F)),
    StableHlo.unary main_v34 main_v35 (Host.negf : (⟨S_, .f32⟩ : BufTy).Contents (Elt F) → (⟨S_, .f32⟩ : BufTy).Contents (Elt F)),
    StableHlo.unary main_v33 main_v36 (broadcastInDim S1 ![] bcast_S_S1 : (⟨S_, .f32⟩ : BufTy).Contents (Elt F) → (⟨S1, .f32⟩ : BufTy).Contents (Elt F)),
    StableHlo.unary main_v35 main_v37 (broadcastInDim S1 ![] bcast_S_S1 : (⟨S_, .f32⟩ : BufTy).Contents (Elt F) → (⟨S1, .f32⟩ : BufTy).Contents (Elt F)),
    StableHlo.binary main_v36 main_v37 main_v38 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v34 main_v39 (broadcastInDim S1 ![] bcast_S_S1 : (⟨S_, .f32⟩ : BufTy).Contents (Elt F) → (⟨S1, .f32⟩ : BufTy).Contents (Elt F)),
    StableHlo.unary main_v33 main_v40 (broadcastInDim S1 ![] bcast_S_S1 : (⟨S_, .f32⟩ : BufTy).Contents (Elt F) → (⟨S1, .f32⟩ : BufTy).Contents (Elt F)),
    StableHlo.binary main_v39 main_v40 main_v41 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v38 main_v42 (broadcastInDim S1x2 ![1] bcast_S2_S1x2_1 : (⟨S2, .f32⟩ : BufTy).Contents (Elt F) → (⟨S1x2, .f32⟩ : BufTy).Contents (Elt F)),
    StableHlo.unary main_v41 main_v43 (broadcastInDim S1x2 ![1] bcast_S2_S1x2_1 : (⟨S2, .f32⟩ : BufTy).Contents (Elt F) → (⟨S1x2, .f32⟩ : BufTy).Contents (Elt F)),
    StableHlo.binary main_v42 main_v43 main_v44 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.reshape main_arg4 main_v45 rfl shapeCasts_S1_S_,
    StableHlo.nullary main_cst_6 (constant S_ .f32 0x40000000#32),
    StableHlo.binary main_v45 main_cst_6 main_v46 (Host.divf : (⟨S_, .f32⟩ : BufTy).Contents (Elt F) → (⟨S_, .f32⟩ : BufTy).Contents (Elt F) → (⟨S_, .f32⟩ : BufTy).Contents (Elt F)),
    StableHlo.unary main_v46 main_v47 (Host.cos : (⟨S_, .f32⟩ : BufTy).Contents (Elt F) → (⟨S_, .f32⟩ : BufTy).Contents (Elt F)),
    StableHlo.unary main_v46 main_v48 (Host.sin : (⟨S_, .f32⟩ : BufTy).Contents (Elt F) → (⟨S_, .f32⟩ : BufTy).Contents (Elt F)),
    StableHlo.unary main_v48 main_v49 (Host.negf : (⟨S_, .f32⟩ : BufTy).Contents (Elt F) → (⟨S_, .f32⟩ : BufTy).Contents (Elt F)),
    StableHlo.unary main_v47 main_v50 (broadcastInDim S1 ![] bcast_S_S1 : (⟨S_, .f32⟩ : BufTy).Contents (Elt F) → (⟨S1, .f32⟩ : BufTy).Contents (Elt F)),
    StableHlo.unary main_v49 main_v51 (broadcastInDim S1 ![] bcast_S_S1 : (⟨S_, .f32⟩ : BufTy).Contents (Elt F) → (⟨S1, .f32⟩ : BufTy).Contents (Elt F)) ]
theorem w0_6_sub : (w0_6 : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem w0_6_fresh : (w0_6 : List (HloOp τ sig (Elt F))).Forall fun op => op.fresh = ∅ := by
  simp only [List.Forall]; repeat' constructor

/-- 7 operations of @main's window 1, in order. -/
abbrev w1_0 : List (HloOp τ sig (Elt F)) :=
  [ StableHlo.binary main_v50 main_v51 main_v52 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v48 main_v53 (broadcastInDim S1 ![] bcast_S_S1 : (⟨S_, .f32⟩ : BufTy).Contents (Elt F) → (⟨S1, .f32⟩ : BufTy).Contents (Elt F)),
    StableHlo.unary main_v47 main_v54 (broadcastInDim S1 ![] bcast_S_S1 : (⟨S_, .f32⟩ : BufTy).Contents (Elt F) → (⟨S1, .f32⟩ : BufTy).Contents (Elt F)),
    StableHlo.binary main_v53 main_v54 main_v55 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v52 main_v56 (broadcastInDim S1x2 ![1] bcast_S2_S1x2_1 : (⟨S2, .f32⟩ : BufTy).Contents (Elt F) → (⟨S1x2, .f32⟩ : BufTy).Contents (Elt F)),
    StableHlo.unary main_v55 main_v57 (broadcastInDim S1x2 ![1] bcast_S2_S1x2_1 : (⟨S2, .f32⟩ : BufTy).Contents (Elt F) → (⟨S1x2, .f32⟩ : BufTy).Contents (Elt F)),
    StableHlo.binary main_v56 main_v57 main_v58 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)) ]
theorem w1_0_sub : (w1_0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem w1_0_fresh : (w1_0 : List (HloOp τ sig (Elt F))).Forall fun op => op.fresh = ∅ := by
  simp only [List.Forall]; repeat' constructor

/-- the six operations of the Kronecker-product function called at this point (main_call3), in order. -/
abbrev w1_1 : List (HloOp τ sig (Elt F)) :=
  [ StableHlo.TRef.unary (.of main_v44 : StableHlo.TRef sig ⟨S2x2, .f32⟩) main_call3.v0 (broadcastInDim S2x1x2x1 ![0, 2] bcast_S2x2_S2x1x2x1_0_2),
    StableHlo.TRef.unary (.of main_v58 : StableHlo.TRef sig ⟨S2x2, .f32⟩) main_call3.v1 (broadcastInDim S1x2x1x2 ![1, 3] bcast_S2x2_S1x2x1x2_1_3),
    StableHlo.TRef.unary main_call3.v0 main_call3.v2 (broadcastInDim S2x2x2x2 ![0, 1, 2, 3] bcast_S2x1x2x1_S2x2x2x2_0_1_2_3),
    StableHlo.TRef.unary main_call3.v1 main_call3.v3 (broadcastInDim S2x2x2x2 ![0, 1, 2, 3] bcast_S1x2x1x2_S2x2x2x2_0_1_2_3),
    StableHlo.TRef.binary main_call3.v2 main_call3.v3 main_call3.v4 mulf,
    StableHlo.TRef.reshape main_call3.v4 main_call3.v5 rfl shapeCasts_S2x2x2x2_S4x4 ]
theorem w1_1_sub : (w1_1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_1_fresh : (w1_1 : List (HloOp τ sig (Elt F))).Forall fun op => op.fresh = ∅ := by
  simp only [List.Forall]; repeat' constructor

/-- the six operations of the Kronecker-product function called at this point (main_call4), in order. -/
abbrev w1_2 : List (HloOp τ sig (Elt F)) :=
  [ StableHlo.TRef.unary (.of main_v59 : StableHlo.TRef sig ⟨S4x4, .f32⟩) main_call4.v0 (broadcastInDim S4x1x4x1 ![0, 2] bcast_S4x4_S4x1x4x1_0_2),
    StableHlo.TRef.unary (.of main_cst_0 : StableHlo.TRef sig ⟨S4x4, .f32⟩) main_call4.v1 (broadcastInDim S1x4x1x4 ![1, 3] bcast_S4x4_S1x4x1x4_1_3),
    StableHlo.TRef.unary main_call4.v0 main_call4.v2 (broadcastInDim S4x4x4x4 ![0, 1, 2, 3] bcast_S4x1x4x1_S4x4x4x4_0_1_2_3),
    StableHlo.TRef.unary main_call4.v1 main_call4.v3 (broadcastInDim S4x4x4x4 ![0, 1, 2, 3] bcast_S1x4x1x4_S4x4x4x4_0_1_2_3),
    StableHlo.TRef.binary main_call4.v2 main_call4.v3 main_call4.v4 mulf,
    StableHlo.TRef.reshape main_call4.v4 main_call4.v5 rfl shapeCasts_S4x4x4x4_S16x16 ]
theorem w1_2_sub : (w1_2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_2_fresh : (w1_2 : List (HloOp τ sig (Elt F))).Forall fun op => op.fresh = ∅ := by
  simp only [List.Forall]; repeat' constructor

/-- the six operations of the Kronecker-product function called at this point (main_call5), in order. -/
abbrev w1_3 : List (HloOp τ sig (Elt F)) :=
  [ StableHlo.TRef.unary (.of main_cst_0 : StableHlo.TRef sig ⟨S4x4, .f32⟩) main_call5.v0 (broadcastInDim S4x1x4x1 ![0, 2] bcast_S4x4_S4x1x4x1_0_2),
    StableHlo.TRef.unary (.of main_cst_1 : StableHlo.TRef sig ⟨S2x2, .f32⟩) main_call5.v1 (broadcastInDim S1x2x1x2 ![1, 3] bcast_S2x2_S1x2x1x2_1_3),
    StableHlo.TRef.unary main_call5.v0 main_call5.v2 (broadcastInDim S4x2x4x2 ![0, 1, 2, 3] bcast_S4x1x4x1_S4x2x4x2_0_1_2_3),
    StableHlo.TRef.unary main_call5.v1 main_call5.v3 (broadcastInDim S4x2x4x2 ![0, 1, 2, 3] bcast_S1x2x1x2_S4x2x4x2_0_1_2_3),
    StableHlo.TRef.binary main_call5.v2 main_call5.v3 main_call5.v4 mulf,
    StableHlo.TRef.reshape main_call5.v4 main_call5.v5 rfl shapeCasts_S4x2x4x2_S8x8 ]
theorem w1_3_sub : (w1_3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_3_fresh : (w1_3 : List (HloOp τ sig (Elt F))).Forall fun op => op.fresh = ∅ := by
  simp only [List.Forall]; repeat' constructor

/-- 15 operations of @main's window 1, in order. -/
abbrev w1_4 : List (HloOp τ sig (Elt F)) :=
  [ StableHlo.reshape main_arg5 main_v62 rfl shapeCasts_S1_S_,
    StableHlo.nullary main_cst_7 (constant S_ .f32 0x40000000#32),
    StableHlo.binary main_v62 main_cst_7 main_v63 (Host.divf : (⟨S_, .f32⟩ : BufTy).Contents (Elt F) → (⟨S_, .f32⟩ : BufTy).Contents (Elt F) → (⟨S_, .f32⟩ : BufTy).Contents (Elt F)),
    StableHlo.unary main_v63 main_v64 (Host.cos : (⟨S_, .f32⟩ : BufTy).Contents (Elt F) → (⟨S_, .f32⟩ : BufTy).Contents (Elt F)),
    StableHlo.unary main_v63 main_v65 (Host.sin : (⟨S_, .f32⟩ : BufTy).Contents (Elt F) → (⟨S_, .f32⟩ : BufTy).Contents (Elt F)),
    StableHlo.unary main_v65 main_v66 (Host.negf : (⟨S_, .f32⟩ : BufTy).Contents (Elt F) → (⟨S_, .f32⟩ : BufTy).Contents (Elt F)),
    StableHlo.unary main_v64 main_v67 (broadcastInDim S1 ![] bcast_S_S1 : (⟨S_, .f32⟩ : BufTy).Contents (Elt F) → (⟨S1, .f32⟩ : BufTy).Contents (Elt F)),
    StableHlo.unary main_v66 main_v68 (broadcastInDim S1 ![] bcast_S_S1 : (⟨S_, .f32⟩ : BufTy).Contents (Elt F) → (⟨S1, .f32⟩ : BufTy).Contents (Elt F)),
    StableHlo.binary main_v67 main_v68 main_v69 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v65 main_v70 (broadcastInDim S1 ![] bcast_S_S1 : (⟨S_, .f32⟩ : BufTy).Contents (Elt F) → (⟨S1, .f32⟩ : BufTy).Contents (Elt F)),
    StableHlo.unary main_v64 main_v71 (broadcastInDim S1 ![] bcast_S_S1 : (⟨S_, .f32⟩ : BufTy).Contents (Elt F) → (⟨S1, .f32⟩ : BufTy).Contents (Elt F)),
    StableHlo.binary main_v70 main_v71 main_v72 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v69 main_v73 (broadcastInDim S1x2 ![1] bcast_S2_S1x2_1 : (⟨S2, .f32⟩ : BufTy).Contents (Elt F) → (⟨S1x2, .f32⟩ : BufTy).Contents (Elt F)),
    StableHlo.unary main_v72 main_v74 (broadcastInDim S1x2 ![1] bcast_S2_S1x2_1 : (⟨S2, .f32⟩ : BufTy).Contents (Elt F) → (⟨S1x2, .f32⟩ : BufTy).Contents (Elt F)),
    StableHlo.binary main_v73 main_v74 main_v75 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)) ]
theorem w1_4_sub : (w1_4 : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem w1_4_fresh : (w1_4 : List (HloOp τ sig (Elt F))).Forall fun op => op.fresh = ∅ := by
  simp only [List.Forall]; repeat' constructor

/-- the six operations of the Kronecker-product function called at this point (main_call6), in order. -/
abbrev w1_5 : List (HloOp τ sig (Elt F)) :=
  [ StableHlo.TRef.unary (.of main_v61 : StableHlo.TRef sig ⟨S8x8, .f32⟩) main_call6.v0 (broadcastInDim S8x1x8x1 ![0, 2] bcast_S8x8_S8x1x8x1_0_2),
    StableHlo.TRef.unary (.of main_v75 : StableHlo.TRef sig ⟨S2x2, .f32⟩) main_call6.v1 (broadcastInDim S1x2x1x2 ![1, 3] bcast_S2x2_S1x2x1x2_1_3),
    StableHlo.TRef.unary main_call6.v0 main_call6.v2 (broadcastInDim S8x2x8x2 ![0, 1, 2, 3] bcast_S8x1x8x1_S8x2x8x2_0_1_2_3),
    StableHlo.TRef.unary main_call6.v1 main_call6.v3 (broadcastInDim S8x2x8x2 ![0, 1, 2, 3] bcast_S1x2x1x2_S8x2x8x2_0_1_2_3),
    StableHlo.TRef.binary main_call6.v2 main_call6.v3 main_call6.v4 mulf,
    StableHlo.TRef.reshape main_call6.v4 main_call6.v5 rfl shapeCasts_S8x2x8x2_S16x16 ]
theorem w1_5_sub : (w1_5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_5_fresh : (w1_5 : List (HloOp τ sig (Elt F))).Forall fun op => op.fresh = ∅ := by
  simp only [List.Forall]; repeat' constructor

/-- 15 operations of @main's window 1, in order. -/
abbrev w1_6 : List (HloOp τ sig (Elt F)) :=
  [ StableHlo.reshape main_arg6 main_v77 rfl shapeCasts_S1_S_,
    StableHlo.nullary main_cst_8 (constant S_ .f32 0x40000000#32),
    StableHlo.binary main_v77 main_cst_8 main_v78 (Host.divf : (⟨S_, .f32⟩ : BufTy).Contents (Elt F) → (⟨S_, .f32⟩ : BufTy).Contents (Elt F) → (⟨S_, .f32⟩ : BufTy).Contents (Elt F)),
    StableHlo.unary main_v78 main_v79 (Host.cos : (⟨S_, .f32⟩ : BufTy).Contents (Elt F) → (⟨S_, .f32⟩ : BufTy).Contents (Elt F)),
    StableHlo.unary main_v78 main_v80 (Host.sin : (⟨S_, .f32⟩ : BufTy).Contents (Elt F) → (⟨S_, .f32⟩ : BufTy).Contents (Elt F)),
    StableHlo.unary main_v80 main_v81 (Host.negf : (⟨S_, .f32⟩ : BufTy).Contents (Elt F) → (⟨S_, .f32⟩ : BufTy).Contents (Elt F)),
    StableHlo.unary main_v79 main_v82 (broadcastInDim S1 ![] bcast_S_S1 : (⟨S_, .f32⟩ : BufTy).Contents (Elt F) → (⟨S1, .f32⟩ : BufTy).Contents (Elt F)),
    StableHlo.unary main_v81 main_v83 (broadcastInDim S1 ![] bcast_S_S1 : (⟨S_, .f32⟩ : BufTy).Contents (Elt F) → (⟨S1, .f32⟩ : BufTy).Contents (Elt F)),
    StableHlo.binary main_v82 main_v83 main_v84 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v80 main_v85 (broadcastInDim S1 ![] bcast_S_S1 : (⟨S_, .f32⟩ : BufTy).Contents (Elt F) → (⟨S1, .f32⟩ : BufTy).Contents (Elt F)),
    StableHlo.unary main_v79 main_v86 (broadcastInDim S1 ![] bcast_S_S1 : (⟨S_, .f32⟩ : BufTy).Contents (Elt F) → (⟨S1, .f32⟩ : BufTy).Contents (Elt F)),
    StableHlo.binary main_v85 main_v86 main_v87 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v84 main_v88 (broadcastInDim S1x2 ![1] bcast_S2_S1x2_1 : (⟨S2, .f32⟩ : BufTy).Contents (Elt F) → (⟨S1x2, .f32⟩ : BufTy).Contents (Elt F)),
    StableHlo.unary main_v87 main_v89 (broadcastInDim S1x2 ![1] bcast_S2_S1x2_1 : (⟨S2, .f32⟩ : BufTy).Contents (Elt F) → (⟨S1x2, .f32⟩ : BufTy).Contents (Elt F)),
    StableHlo.binary main_v88 main_v89 main_v90 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)) ]
theorem w1_6_sub : (w1_6 : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem w1_6_fresh : (w1_6 : List (HloOp τ sig (Elt F))).Forall fun op => op.fresh = ∅ := by
  simp only [List.Forall]; repeat' constructor

/-- the six operations of the Kronecker-product function called at this point (main_call7), in order. -/
abbrev w1_7 : List (HloOp τ sig (Elt F)) :=
  [ StableHlo.TRef.unary (.of main_cst_1 : StableHlo.TRef sig ⟨S2x2, .f32⟩) main_call7.v0 (broadcastInDim S2x1x2x1 ![0, 2] bcast_S2x2_S2x1x2x1_0_2),
    StableHlo.TRef.unary (.of main_v90 : StableHlo.TRef sig ⟨S2x2, .f32⟩) main_call7.v1 (broadcastInDim S1x2x1x2 ![1, 3] bcast_S2x2_S1x2x1x2_1_3),
    StableHlo.TRef.unary main_call7.v0 main_call7.v2 (broadcastInDim S2x2x2x2 ![0, 1, 2, 3] bcast_S2x1x2x1_S2x2x2x2_0_1_2_3),
    StableHlo.TRef.unary main_call7.v1 main_call7.v3 (broadcastInDim S2x2x2x2 ![0, 1, 2, 3] bcast_S1x2x1x2_S2x2x2x2_0_1_2_3),
    StableHlo.TRef.binary main_call7.v2 main_call7.v3 main_call7.v4 mulf,
    StableHlo.TRef.reshape main_call7.v4 main_call7.v5 rfl shapeCasts_S2x2x2x2_S4x4 ]
theorem w1_7_sub : (w1_7 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_7_fresh : (w1_7 : List (HloOp τ sig (Elt F))).Forall fun op => op.fresh = ∅ := by
  simp only [List.Forall]; repeat' constructor

/-- the six operations of the Kronecker-product function called at this point (main_call8), in order. -/
abbrev w1_8 : List (HloOp τ sig (Elt F)) :=
  [ StableHlo.TRef.unary (.of main_v91 : StableHlo.TRef sig ⟨S4x4, .f32⟩) main_call8.v0 (broadcastInDim S4x1x4x1 ![0, 2] bcast_S4x4_S4x1x4x1_0_2),
    StableHlo.TRef.unary (.of main_cst_1 : StableHlo.TRef sig ⟨S2x2, .f32⟩) main_call8.v1 (broadcastInDim S1x2x1x2 ![1, 3] bcast_S2x2_S1x2x1x2_1_3),
    StableHlo.TRef.unary main_call8.v0 main_call8.v2 (broadcastInDim S4x2x4x2 ![0, 1, 2, 3] bcast_S4x1x4x1_S4x2x4x2_0_1_2_3),
    StableHlo.TRef.unary main_call8.v1 main_call8.v3 (broadcastInDim S4x2x4x2 ![0, 1, 2, 3] bcast_S1x2x1x2_S4x2x4x2_0_1_2_3),
    StableHlo.TRef.binary main_call8.v2 main_call8.v3 main_call8.v4 mulf,
    StableHlo.TRef.reshape main_call8.v4 main_call8.v5 rfl shapeCasts_S4x2x4x2_S8x8 ]
theorem w1_8_sub : (w1_8 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_8_fresh : (w1_8 : List (HloOp τ sig (Elt F))).Forall fun op => op.fresh = ∅ := by
  simp only [List.Forall]; repeat' constructor

/-- the six operations of the Kronecker-product function called at this point (main_call9), in order. -/
abbrev w1_9 : List (HloOp τ sig (Elt F)) :=
  [ StableHlo.TRef.unary (.of main_v92 : StableHlo.TRef sig ⟨S8x8, .f32⟩) main_call9.v0 (broadcastInDim S8x1x8x1 ![0, 2] bcast_S8x8_S8x1x8x1_0_2),
    StableHlo.TRef.unary (.of main_cst_1 : StableHlo.TRef sig ⟨S2x2, .f32⟩) main_call9.v1 (broadcastInDim S1x2x1x2 ![1, 3] bcast_S2x2_S1x2x1x2_1_3),
    StableHlo.TRef.unary main_call9.v0 main_call9.v2 (broadcastInDim S8x2x8x2 ![0, 1, 2, 3] bcast_S8x1x8x1_S8x2x8x2_0_1_2_3),
    StableHlo.TRef.unary main_call9.v1 main_call9.v3 (broadcastInDim S8x2x8x2 ![0, 1, 2, 3] bcast_S1x2x1x2_S8x2x8x2_0_1_2_3),
    StableHlo.TRef.binary main_call9.v2 main_call9.v3 main_call9.v4 mulf,
    StableHlo.TRef.reshape main_call9.v4 main_call9.v5 rfl shapeCasts_S8x2x8x2_S16x16 ]
theorem w1_9_sub : (w1_9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_9_fresh : (w1_9 : List (HloOp τ sig (Elt F))).Forall fun op => op.fresh = ∅ := by
  simp only [List.Forall]; repeat' constructor

/-- the six operations of the Kronecker-product function called at this point (main_call10), in order. -/
abbrev w1_10 : List (HloOp τ sig (Elt F)) :=
  [ StableHlo.TRef.unary (.of main_cst_1 : StableHlo.TRef sig ⟨S2x2, .f32⟩) main_call10.v0 (broadcastInDim S2x1x2x1 ![0, 2] bcast_S2x2_S2x1x2x1_0_2),
    StableHlo.TRef.unary (.of main_cst_1 : StableHlo.TRef sig ⟨S2x2, .f32⟩) main_call10.v1 (broadcastInDim S1x2x1x2 ![1, 3] bcast_S2x2_S1x2x1x2_1_3),
    StableHlo.TRef.unary main_call10.v0 main_call10.v2 (broadcastInDim S2x2x2x2 ![0, 1, 2, 3] bcast_S2x1x2x1_S2x2x2x2_0_1_2_3),
    StableHlo.TRef.unary main_call10.v1 main_call10.v3 (broadcastInDim S2x2x2x2 ![0, 1, 2, 3] bcast_S1x2x1x2_S2x2x2x2_0_1_2_3),
    StableHlo.TRef.binary main_call10.v2 main_call10.v3 main_call10.v4 mulf,
    StableHlo.TRef.reshape main_call10.v4 main_call10.v5 rfl shapeCasts_S2x2x2x2_S4x4 ]
theorem w1_10_sub : (w1_10 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_10_fresh : (w1_10 : List (HloOp τ sig (Elt F))).Forall fun op => op.fresh = ∅ := by
  simp only [List.Forall]; repeat' constructor

/-- the six operations of the Kronecker-product function called at this point (main_call11), in order. -/
abbrev w1_11 : List (HloOp τ sig (Elt F)) :=
  [ StableHlo.TRef.unary (.of main_v94 : StableHlo.TRef sig ⟨S4x4, .f32⟩) main_call11.v0 (broadcastInDim S4x1x4x1 ![0, 2] bcast_S4x4_S4x1x4x1_0_2),
    StableHlo.TRef.unary (.of main_cst_0 : StableHlo.TRef sig ⟨S4x4, .f32⟩) main_call11.v1 (broadcastInDim S1x4x1x4 ![1, 3] bcast_S4x4_S1x4x1x4_1_3),
    StableHlo.TRef.unary main_call11.v0 main_call11.v2 (broadcastInDim S4x4x4x4 ![0, 1, 2, 3] bcast_S4x1x4x1_S4x4x4x4_0_1_2_3),
    StableHlo.TRef.unary main_call11.v1 main_call11.v3 (broadcastInDim S4x4x4x4 ![0, 1, 2, 3] bcast_S1x4x1x4_S4x4x4x4_0_1_2_3),
    StableHlo.TRef.binary main_call11.v2 main_call11.v3 main_call11.v4 mulf,
    StableHlo.TRef.reshape main_call11.v4 main_call11.v5 rfl shapeCasts_S4x4x4x4_S16x16 ]
theorem w1_11_sub : (w1_11 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_11_fresh : (w1_11 : List (HloOp τ sig (Elt F))).Forall fun op => op.fresh = ∅ := by
  simp only [List.Forall]; repeat' constructor

/-- 9 operations of @main's window 1, in order. -/
abbrev w1_12 : List (HloOp τ sig (Elt F)) :=
  [ StableHlo.reshape main_v95 main_v96 rfl shapeCasts_S16x16_S2x2x2x2x2x2x2x2,
    StableHlo.unary main_v96 main_v97 ((transpose S2x2x2x2x2x2x2x2 [0, 2, 1, 3, 4, 5, 6, 7] · transposes_S2x2x2x2x2x2x2x2_S2x2x2x2x2x2x2x2_0_2_1_3_4_5_6_7) : (⟨S2x2x2x2x2x2x2x2, .f32⟩ : BufTy).Contents (Elt F) → (⟨S2x2x2x2x2x2x2x2, .f32⟩ : BufTy).Contents (Elt F)),
    StableHlo.unary main_v97 main_v98 ((transpose S2x2x2x2x2x2x2x2 [0, 1, 2, 3, 4, 6, 5, 7] · transposes_S2x2x2x2x2x2x2x2_S2x2x2x2x2x2x2x2_0_1_2_3_4_6_5_7) : (⟨S2x2x2x2x2x2x2x2, .f32⟩ : BufTy).Contents (Elt F) → (⟨S2x2x2x2x2x2x2x2, .f32⟩ : BufTy).Contents (Elt F)),
    StableHlo.reshape main_v98 main_v99 rfl shapeCasts_S2x2x2x2x2x2x2x2_S16x16,
    StableHlo.binary main_v99 main_v93 main_v100 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v100 main_v76 main_v101 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v101 main_v60 main_v102 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v102 main_v30 main_v103 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v103 main_arg0 main_v104 ((fun l r => Host.dotGeneral dot_S16x16_S16x8192_S16x8192_1_0_0_1_n_n none l r) : (⟨S16x16, .f32⟩ : BufTy).Contents (Elt F) → (⟨S16x8192, .f32⟩ : BufTy).Contents (Elt F) → (⟨S16x8192, .f32⟩ : BufTy).Contents (Elt F)) ]
theorem w1_12_sub : (w1_12 : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub ..⟩
theorem w1_12_fresh : (w1_12 : List (HloOp τ sig (Elt F))).Forall fun op => op.fresh = ∅ := by
  simp only [List.Forall]; repeat' constructor

/-- the six operations of the Kronecker-product function called at this point (main_call12), in order. -/
abbrev w1_13 : List (HloOp τ sig (Elt F)) :=
  [ StableHlo.TRef.unary (.of main_cst_1 : StableHlo.TRef sig ⟨S2x2, .f32⟩) main_call12.v0 (broadcastInDim S2x1x2x1 ![0, 2] bcast_S2x2_S2x1x2x1_0_2),
    StableHlo.TRef.unary (.of main_cst_1 : StableHlo.TRef sig ⟨S2x2, .f32⟩) main_call12.v1 (broadcastInDim S1x2x1x2 ![1, 3] bcast_S2x2_S1x2x1x2_1_3),
    StableHlo.TRef.unary main_call12.v0 main_call12.v2 (broadcastInDim S2x2x2x2 ![0, 1, 2, 3] bcast_S2x1x2x1_S2x2x2x2_0_1_2_3),
    StableHlo.TRef.unary main_call12.v1 main_call12.v3 (broadcastInDim S2x2x2x2 ![0, 1, 2, 3] bcast_S1x2x1x2_S2x2x2x2_0_1_2_3),
    StableHlo.TRef.binary main_call12.v2 main_call12.v3 main_call12.v4 mulf,
    StableHlo.TRef.reshape main_call12.v4 main_call12.v5 rfl shapeCasts_S2x2x2x2_S4x4 ]
theorem w1_13_sub : (w1_13 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_13_fresh : (w1_13 : List (HloOp τ sig (Elt F))).Forall fun op => op.fresh = ∅ := by
  simp only [List.Forall]; repeat' constructor

/-- the six operations of the Kronecker-product function called at this point (main_call13), in order. -/
abbrev w1_14 : List (HloOp τ sig (Elt F)) :=
  [ StableHlo.TRef.unary (.of main_v105 : StableHlo.TRef sig ⟨S4x4, .f32⟩) main_call13.v0 (broadcastInDim S4x1x4x1 ![0, 2] bcast_S4x4_S4x1x4x1_0_2),
    StableHlo.TRef.unary (.of main_cst_1 : StableHlo.TRef sig ⟨S2x2, .f32⟩) main_call13.v1 (broadcastInDim S1x2x1x2 ![1, 3] bcast_S2x2_S1x2x1x2_1_3),
    StableHlo.TRef.unary main_call13.v0 main_call13.v2 (broadcastInDim S4x2x4x2 ![0, 1, 2, 3] bcast_S4x1x4x1_S4x2x4x2_0_1_2_3),
    StableHlo.TRef.unary main_call13.v1 main_call13.v3 (broadcastInDim S4x2x4x2 ![0, 1, 2, 3] bcast_S1x2x1x2_S4x2x4x2_0_1_2_3),
    StableHlo.TRef.binary main_call13.v2 main_call13.v3 main_call13.v4 mulf,
    StableHlo.TRef.reshape main_call13.v4 main_call13.v5 rfl shapeCasts_S4x2x4x2_S8x8 ]
theorem w1_14_sub : (w1_14 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_14_fresh : (w1_14 : List (HloOp τ sig (Elt F))).Forall fun op => op.fresh = ∅ := by
  simp only [List.Forall]; repeat' constructor

/-- the six operations of the Kronecker-product function called at this point (main_call14), in order. -/
abbrev w1_15 : List (HloOp τ sig (Elt F)) :=
  [ StableHlo.TRef.unary (.of main_v106 : StableHlo.TRef sig ⟨S8x8, .f32⟩) main_call14.v0 (broadcastInDim S8x1x8x1 ![0, 2] bcast_S8x8_S8x1x8x1_0_2),
    StableHlo.TRef.unary (.of main_cst_2 : StableHlo.TRef sig ⟨S2x2, .f32⟩) main_call14.v1 (broadcastInDim S1x2x1x2 ![1, 3] bcast_S2x2_S1x2x1x2_1_3),
    StableHlo.TRef.unary main_call14.v0 main_call14.v2 (broadcastInDim S8x2x8x2 ![0, 1, 2, 3] bcast_S8x1x8x1_S8x2x8x2_0_1_2_3),
    StableHlo.TRef.unary main_call14.v1 main_call14.v3 (broadcastInDim S8x2x8x2 ![0, 1, 2, 3] bcast_S1x2x1x2_S8x2x8x2_0_1_2_3),
    StableHlo.TRef.binary main_call14.v2 main_call14.v3 main_call14.v4 mulf,
    StableHlo.TRef.reshape main_call14.v4 main_call14.v5 rfl shapeCasts_S8x2x8x2_S16x16 ]
theorem w1_15_sub : (w1_15 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem w1_15_fresh : (w1_15 : List (HloOp τ sig (Elt F))).Forall fun op => op.fresh = ∅ := by
  simp only [List.Forall]; repeat' constructor

/-- 2 operations of @main's window 1, in order. -/
abbrev w1_16 : List (HloOp τ sig (Elt F)) :=
  [ StableHlo.unary main_v104 main_v108 ((transpose S8192x16 [1, 0] · transposes_S16x8192_S8192x16_1_0) : (⟨S16x8192, .f32⟩ : BufTy).Contents (Elt F) → (⟨S8192x16, .f32⟩ : BufTy).Contents (Elt F)),
    StableHlo.binary main_v107 main_v104 main_v109 ((fun l r => Host.dotGeneral dot_S16x16_S16x8192_S16x8192_1_0_0_1_n_n none l r) : (⟨S16x16, .f32⟩ : BufTy).Contents (Elt F) → (⟨S16x8192, .f32⟩ : BufTy).Contents (Elt F) → (⟨S16x8192, .f32⟩ : BufTy).Contents (Elt F)) ]
theorem w1_16_sub : (w1_16 : List (HloOp τ sig (Elt F))).Forall fun op => op.bufs ⊆ StableHlo.tcRefs τ sig :=
  ⟨StableHlo.unary_bufs_sub .., StableHlo.binary_bufs_sub ..⟩
theorem w1_16_fresh : (w1_16 : List (HloOp τ sig (Elt F))).Forall fun op => op.fresh = ∅ := by
  simp only [List.Forall]; repeat' constructor

/-- 1 operation of @main's window 2, in order. -/
abbrev w2_0 : List (HloOp τ sig (Elt F)) :=
  [ StableHlo.binary main_v108 main_v109 main_v110 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)) ]
theorem w2_0_sub : (w2_0 : List (HloOp τ sig (Elt F))).Forall fun op => op.bufs ⊆ StableHlo.tcRefs τ sig :=
  (StableHlo.binary_bufs_sub ..)
theorem w2_0_fresh : (w2_0 : List (HloOp τ sig (Elt F))).Forall fun op => op.fresh = ∅ := by
  simp only [List.Forall]; repeat' constructor

/-! ## @main is their sequence -/

/-- Window 0 of @main is the sequence of its stretches, the last in tail position. -/
theorem main_part0_chain (c : Dev nD) : main_part0 (F := F) c = (Pipeline.chainK
  [ StableHlo.seq w0_0,
    StableHlo.seq w0_1,
    StableHlo.seq w0_2,
    StableHlo.seq w0_3,
    StableHlo.seq w0_4,
    StableHlo.seq w0_5 ]
  (StableHlo.seq w0_6) : Prog (TpuEff nD τ sig (Elt F) (Pipeline.Sig Λ₀ (Fin 0) fun p => (pcfgs (F := F) p).Adm) .tc) PUnit) := by
  chain_rfl

/-- Window 1 of @main is the sequence of its stretches, the last in tail position. -/
theorem main_part1_chain (c : Dev nD) : main_part1 (F := F) c = (Pipeline.chainK
  [ StableHlo.seq w1_0,
    StableHlo.seq w1_1,
    StableHlo.seq w1_2,
    StableHlo.seq w1_3,
    StableHlo.seq w1_4,
    StableHlo.seq w1_5,
    StableHlo.seq w1_6,
    StableHlo.seq w1_7,
    StableHlo.seq w1_8,
    StableHlo.seq w1_9,
    StableHlo.seq w1_10,
    StableHlo.seq w1_11,
    StableHlo.seq w1_12,
    StableHlo.seq w1_13,
    StableHlo.seq w1_14,
    StableHlo.seq w1_15 ]
  (StableHlo.seq w1_16) : Prog (TpuEff nD τ sig (Elt F) (Pipeline.Sig Λ₀ (Fin 0) fun p => (pcfgs (F := F) p).Adm) .tc) PUnit) := by
  chain_rfl

/-- The last window of @main is the sequence of its stretches and the return. -/
theorem main_part2_chain (c : Dev nD) : main_part2 (F := F) c = (Pipeline.chain
  [ StableHlo.seq w2_0 ] : Prog (TpuEff nD τ sig (Elt F) (Pipeline.Sig Λ₀ (Fin 0) fun p => (pcfgs (F := F) p).Adm) .tc) PUnit) := by
  chain_rfl

/-- @main is the sequence of all its stretches. -/
theorem main_chain (c : Dev nD) : main (F := F) c = (Pipeline.chain
  [ StableHlo.seq w0_0,
    StableHlo.seq w0_1,
    StableHlo.seq w0_2,
    StableHlo.seq w0_3,
    StableHlo.seq w0_4,
    StableHlo.seq w0_5,
    StableHlo.seq w0_6,
    StableHlo.seq w1_0,
    StableHlo.seq w1_1,
    StableHlo.seq w1_2,
    StableHlo.seq w1_3,
    StableHlo.seq w1_4,
    StableHlo.seq w1_5,
    StableHlo.seq w1_6,
    StableHlo.seq w1_7,
    StableHlo.seq w1_8,
    StableHlo.seq w1_9,
    StableHlo.seq w1_10,
    StableHlo.seq w1_11,
    StableHlo.seq w1_12,
    StableHlo.seq w1_13,
    StableHlo.seq w1_14,
    StableHlo.seq w1_15,
    StableHlo.seq w1_16,
    StableHlo.seq w2_0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The stretches, in order. -/
abbrev stretches : List (List (HloOp τ sig (Elt F))) :=
  [ w0_0, w0_1, w0_2, w0_3, w0_4, w0_5, w0_6, w1_0, w1_1, w1_2, w1_3, w1_4, w1_5, w1_6, w1_7, w1_8, w1_9, w1_10, w1_11, w1_12, w1_13, w1_14, w1_15, w1_16, w2_0 ]

/-- @main's operations, in order: the stretches concatenated. -/
abbrev ops : List (HloOp τ sig (Elt F)) := List.flatten stretches

/-- @main is that one line. -/
theorem main_eq (c : Dev nD) : main (F := F) c = StableHlo.seq ops := by
  rw [main_chain c]
  exact chain_seq stretches

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  forall_flatten stretches (List.forall_mem_cons.mpr ⟨w0_0_sub, (List.forall_mem_cons.mpr ⟨w0_1_sub, (List.forall_mem_cons.mpr ⟨w0_2_sub, (List.forall_mem_cons.mpr ⟨w0_3_sub, (List.forall_mem_cons.mpr ⟨w0_4_sub, (List.forall_mem_cons.mpr ⟨w0_5_sub, (List.forall_mem_cons.mpr ⟨w0_6_sub, (List.forall_mem_cons.mpr ⟨w1_0_sub, (List.forall_mem_cons.mpr ⟨w1_1_sub, (List.forall_mem_cons.mpr ⟨w1_2_sub, (List.forall_mem_cons.mpr ⟨w1_3_sub, (List.forall_mem_cons.mpr ⟨w1_4_sub, (List.forall_mem_cons.mpr ⟨w1_5_sub, (List.forall_mem_cons.mpr ⟨w1_6_sub, (List.forall_mem_cons.mpr ⟨w1_7_sub, (List.forall_mem_cons.mpr ⟨w1_8_sub, (List.forall_mem_cons.mpr ⟨w1_9_sub, (List.forall_mem_cons.mpr ⟨w1_10_sub, (List.forall_mem_cons.mpr ⟨w1_11_sub, (List.forall_mem_cons.mpr ⟨w1_12_sub, (List.forall_mem_cons.mpr ⟨w1_13_sub, (List.forall_mem_cons.mpr ⟨w1_14_sub, (List.forall_mem_cons.mpr ⟨w1_15_sub, (List.forall_mem_cons.mpr ⟨w1_16_sub, (List.forall_mem_cons.mpr ⟨w2_0_sub, (List.forall_mem_nil _)⟩)⟩)⟩)⟩)⟩)⟩)⟩)⟩)⟩)⟩)⟩)⟩)⟩)⟩)⟩)⟩)⟩)⟩)⟩)⟩)⟩)⟩)⟩)⟩)⟩)

theorem ops_fresh : (ops : List (HloOp τ sig (Elt F))).Forall fun op => op.fresh = ∅ :=
  forall_flatten stretches (List.forall_mem_cons.mpr ⟨w0_0_fresh, (List.forall_mem_cons.mpr ⟨w0_1_fresh, (List.forall_mem_cons.mpr ⟨w0_2_fresh, (List.forall_mem_cons.mpr ⟨w0_3_fresh, (List.forall_mem_cons.mpr ⟨w0_4_fresh, (List.forall_mem_cons.mpr ⟨w0_5_fresh, (List.forall_mem_cons.mpr ⟨w0_6_fresh, (List.forall_mem_cons.mpr ⟨w1_0_fresh, (List.forall_mem_cons.mpr ⟨w1_1_fresh, (List.forall_mem_cons.mpr ⟨w1_2_fresh, (List.forall_mem_cons.mpr ⟨w1_3_fresh, (List.forall_mem_cons.mpr ⟨w1_4_fresh, (List.forall_mem_cons.mpr ⟨w1_5_fresh, (List.forall_mem_cons.mpr ⟨w1_6_fresh, (List.forall_mem_cons.mpr ⟨w1_7_fresh, (List.forall_mem_cons.mpr ⟨w1_8_fresh, (List.forall_mem_cons.mpr ⟨w1_9_fresh, (List.forall_mem_cons.mpr ⟨w1_10_fresh, (List.forall_mem_cons.mpr ⟨w1_11_fresh, (List.forall_mem_cons.mpr ⟨w1_12_fresh, (List.forall_mem_cons.mpr ⟨w1_13_fresh, (List.forall_mem_cons.mpr ⟨w1_14_fresh, (List.forall_mem_cons.mpr ⟨w1_15_fresh, (List.forall_mem_cons.mpr ⟨w1_16_fresh, (List.forall_mem_cons.mpr ⟨w2_0_fresh, (List.forall_mem_nil _)⟩)⟩)⟩)⟩)⟩)⟩)⟩)⟩)⟩)⟩)⟩)⟩)⟩)⟩)⟩)⟩)⟩)⟩)⟩)⟩)⟩)⟩)⟩)⟩)⟩)

/-- On every device, from any memory with zero counters: every weakly fair execution of @main terminates, and each
    buffer ends at the fold of the operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

end Cert.ReferenceIdeal.HostRun

end
-- ==== Proof.RefRead.lean ====
/-
  What the reference's @main leaves in its result: the expectation matrix of the circuit.

  Reading the fold of @main's operations at the result buffer, operation by operation, gives the composed term of the
  launch contents of the seven arguments; that term is, by unfolding the definitions of the circuit's matrices, the
  expectation matrix (U·X)ᵀ·(M·(U·X)) with U the circuit's unitary in the six angles and M the observable.
-/
import proofs.«114526_j71408126263792_2_alg».proof.Proof.RefOps
import proofs.«114526_j71408126263792_2_alg».proof.Proof.Circuit

noncomputable section

namespace Cert.ReferenceIdeal.HostRun

open Cert.ReferenceIdeal Cert.ReferenceIdeal.Gen Idealize.ShloMosaic Idealize.ShloMosaic.TcCoe Idealize.SL.Sem
open Idealize.ShloMosaic.StableHlo

/-- The constant gate matrices the program spells as tables of float patterns: the bit flip X, -/
abbrev tabX : FVec Ideal S2x2 .f32 := fun i => FloatOps.ofBits .f32 (lit0 (S2x2.rowMajor i))
/-- the controlled NOT, -/
abbrev tabCN : FVec Ideal S4x4 .f32 := fun i => FloatOps.ofBits .f32 (lit1 (S4x4.rowMajor i))
/-- the identity, -/
abbrev tabI : FVec Ideal S2x2 .f32 := fun i => FloatOps.ofBits .f32 (lit2 (S2x2.rowMajor i))
/-- and the sign matrix Z. -/
abbrev tabZ : FVec Ideal S2x2 .f32 := fun i => FloatOps.ofBits .f32 (lit3 (S2x2.rowMajor i))

set_option maxRecDepth 65536 in
set_option maxHeartbeats 4000000 in
/-- The fold of @main's operations at the result buffer is the expectation matrix of the arguments. -/
theorem result_eq (V : Valuation τ sig (Elt Ideal)) :
    after (ops (F := Ideal)) V (Proc.devRef .tc main_v110)
      = Cert.Circuit.expectation
          (Cert.Circuit.unitary tabX tabI tabCN (V (Proc.devRef .tc main_arg1)) (V (Proc.devRef .tc main_arg2)) (V (Proc.devRef .tc main_arg3))
            (V (Proc.devRef .tc main_arg4)) (V (Proc.devRef .tc main_arg5)) (V (Proc.devRef .tc main_arg6)))
          (Cert.Circuit.observable tabI tabZ) (V (Proc.devRef .tc main_arg0)) := by
  simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append, List.nil_append]
  after_results_simp
  rfl

end Cert.ReferenceIdeal.HostRun

end
-- ==== Proof.RefKept.lean ====
/-
  The reference's @main writes none of its seven arguments: each keeps its launch contents through the whole line of
  operations (every operation writes its own result buffer, and no result buffer is an argument).
-/
import proofs.«114526_j71408126263792_2_alg».proof.Proof.RefOps

set_option maxRecDepth 16384

noncomputable section

namespace Cert.ReferenceIdeal.HostRun

open Cert.ReferenceIdeal Cert.ReferenceIdeal.Gen Idealize.ShloMosaic Idealize.ShloMosaic.TcCoe Idealize.SL.Sem
open Idealize.ShloMosaic.StableHlo

variable {F : FTy → Type} [FloatOps F]

/-- No operation of @main writes argument 0: it keeps its contents. -/
theorem kept_arg0 (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append,
      List.nil_append, List.Forall, nullary_writes, unary_writes, binary_writes, reshape_writes, Finset.mem_singleton]
    repeat' apply And.intro
    all_goals exact devRef_ne_of_ne (by decide)))

/-- No operation of @main writes argument 1: it keeps its contents. -/
theorem kept_arg1 (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append,
      List.nil_append, List.Forall, nullary_writes, unary_writes, binary_writes, reshape_writes, Finset.mem_singleton]
    repeat' apply And.intro
    all_goals exact devRef_ne_of_ne (by decide)))

/-- No operation of @main writes argument 2: it keeps its contents. -/
theorem kept_arg2 (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append,
      List.nil_append, List.Forall, nullary_writes, unary_writes, binary_writes, reshape_writes, Finset.mem_singleton]
    repeat' apply And.intro
    all_goals exact devRef_ne_of_ne (by decide)))

/-- No operation of @main writes argument 3: it keeps its contents. -/
theorem kept_arg3 (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append,
      List.nil_append, List.Forall, nullary_writes, unary_writes, binary_writes, reshape_writes, Finset.mem_singleton]
    repeat' apply And.intro
    all_goals exact devRef_ne_of_ne (by decide)))

/-- No operation of @main writes argument 4: it keeps its contents. -/
theorem kept_arg4 (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append,
      List.nil_append, List.Forall, nullary_writes, unary_writes, binary_writes, reshape_writes, Finset.mem_singleton]
    repeat' apply And.intro
    all_goals exact devRef_ne_of_ne (by decide)))

/-- No operation of @main writes argument 5: it keeps its contents. -/
theorem kept_arg5 (V : Valuation τ sig (Elt F)) :
    after (ops (F := F)) V (Proc.devRef .tc main_arg5) = V (Proc.devRef .tc main_arg5) :=
  after_of_forall_not_mem (b := Proc.devRef .tc main_arg5) _ _ (List.forall_iff_forall_mem.mp (by
    simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append,
      List.nil_append, List.Forall, nullary_writes, unary_writes, binary_writes, reshape_writes, Finset.mem_singleton]
    repeat' apply And.intro
    all_goals exact devRef_ne_of_ne (by decide)))

/-- No operation of @main writes argument 6: it keeps its contents. -/
theorem kept_arg6 (V : Valuation τ sig (Elt F)) :
    after (ops (F := F)) V (Proc.devRef .tc main_arg6) = V (Proc.devRef .tc main_arg6) :=
  after_of_forall_not_mem (b := Proc.devRef .tc main_arg6) _ _ (List.forall_iff_forall_mem.mp (by
    simp only [ops, stretches, w0_0, w0_1, w0_2, w0_3, w0_4, w0_5, w0_6, w1_0, w1_1, w1_2, w1_3, w1_4, w1_5, w1_6, w1_7, w1_8, w1_9, w1_10, w1_11, w1_12, w1_13, w1_14, w1_15, w1_16, w2_0, List.flatten_cons, List.flatten_nil, List.append_nil, List.cons_append,
      List.nil_append, List.Forall, nullary_writes, unary_writes, binary_writes, reshape_writes, Finset.mem_singleton]
    repeat' apply And.intro
    all_goals exact devRef_ne_of_ne (by decide)))

end Cert.ReferenceIdeal.HostRun

end
-- ==== Proof.Bridge.lean ====
/-
  The two programs compute one matrix.

  With α = U·X the transformed states (16 × 8192), the kernel's program forms β = (M·U)·X on the host and the Pallas
  kernel returns the 8192 × 8192 matrix whose entry (p, q) is Σ_k α[k,p]·β[k,q]; the reference returns αᵀ·(M·α), whose
  entry (p, q) is Σ_k α[k,p]·(M·α)[k,q].  The two agree as soon as (M·U)·X = M·(U·X), which is the associativity of
  the matrix product.  Over the extended reals that law needs the entries of M, U and X to be real numbers (a product
  does not distribute over a sum of infinities): U and M are real because they are built from cosines and sines of the
  real angles, X is real by the precondition.
-/
import proofs.«114526_j71408126263792_2_alg».proof.Proof.Circuit
import Idealize.ShloMosaic.Lib.Pipeline.Value

noncomputable section

namespace Cert.Bridge

open Idealize.ShloMosaic Idealize.ShloMosaic.ValueIdx Cert.RealEntries Cert.Circuit

/-- The transpose of a 16 × 8192 matrix at entry (p, k) is the matrix at (k, p). -/
theorem transpose_at (A : FVec Ideal S16x8192 .f32) (p : Fin 8192) (k : Fin 16) :
    transpose S8192x16 [1, 0] A tr_f (ix2 p k) = A (ix2 k p) :=
  transpose_apply [1, 0] A tr_f (ix2 p k) (ix2 k p) fun b => by
    match b with
    | ⟨0, _⟩ => rfl
    | ⟨1, _⟩ => rfl

/-- A 16×16 matrix applied to the states, at entry (k, q). -/
theorem apply_at (A : FVec Ideal S16x16 .f32) (X : FVec Ideal S16x8192 .f32) (k : Fin 16) (q : Fin 8192) :
    apply A X (ix2 k q) = ∑ i : Fin 16, A (ix2 k i) * X (ix2 i q) :=
  Cert.DotNN.dotGeneral_apply (DotDims.plain 16 16 8192) rfl none A X k q

/-- A product of 16×16 matrices at entry (k, j). -/
theorem mm_at (A B : FVec Ideal S16x16 .f32) (k j : Fin 16) :
    mm A B (ix2 k j) = ∑ i : Fin 16, A (ix2 k i) * B (ix2 i j) :=
  Cert.DotNN.dotGeneral_apply (DotDims.plain 16 16 16) rfl none A B k j

/-- (M·U)·X = M·(U·X) entry by entry, for matrices of real numbers. -/
theorem apply_mm (M U : FVec Ideal S16x16 .f32) (X : FVec Ideal S16x8192 .f32)
    (hM : AllReal M) (hU : AllReal U) (hX : AllReal X) (k : Fin 16) (q : Fin 8192) :
    apply (mm M U) X (ix2 k q) = apply M (apply U X) (ix2 k q) := by
  rw [apply_at, apply_at]
  simp only [mm_at, apply_at]
  exact matmul_assoc (fun k i => M (ix2 k i)) (fun i j => U (ix2 i j)) (fun j q => X (ix2 j q))
    (fun _ _ => hM _) (fun _ _ => hU _) (fun _ _ => hX _) k q

/-- The reference's matrix at entry (p, q) is the inner product of column p of U·X with column q of (M·U)·X. -/
theorem expectation_at (U M : FVec Ideal S16x16 .f32) (X : FVec Ideal S16x8192 .f32)
    (hM : AllReal M) (hU : AllReal U) (hX : AllReal X) (p q : Fin 8192) :
    expectation U M X (ix2 p q) = ∑ k : Fin 16, apply U X (ix2 k p) * apply (mm M U) X (ix2 k q) := by
  unfold expectation
  rw [Cert.DotNN.dotGeneral_apply (DotDims.plain 8192 16 8192) rfl]
  exact Finset.sum_congr rfl fun k _ => by rw [transpose_at, apply_mm M U X hM hU hX]

end Cert.Bridge

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«114526_j71408126263792_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.FiniteArgs.lean ====
/-
  The precondition, decoded: every argument array has real entries.

  The printed predicate is the conjunction, argument by argument, of all(|x| < +∞); being true, each conjunct is
  true, and each says that its argument's entries are real numbers.
-/
import proofs.«114526_j71408126263792_2_alg».proof.Proof.Gen.Pre_finite_inputs
import proofs.«114526_j71408126263792_2_alg».proof.Proof.LibFiniteInputs

noncomputable section

namespace Cert.FiniteArgs

open Idealize.ShloMosaic Idealize.ShloMosaic.ValueIdx Cert.RealEntries Cert.Pre_finite_inputs

variable [Cert.Pre_finite_inputs.Facts]

instance : Subsingleton S_.Idx := ⟨fun _ _ => funext fun d => d.elim0⟩

/-- If the precondition holds of the seven arguments, each of them has only real entries. -/
theorem allReal_of_pre (X : FVec Ideal S16x8192 .f32) (θ1 θ2 θ3 θ4 θ5 θ6 : FVec Ideal S1 .f32)
    (hpre : fn (F := Ideal) X θ1 θ2 θ3 θ4 θ5 θ6 = fun _ => 1#1) :
    AllReal X ∧ AllReal θ1 ∧ AllReal θ2 ∧ AllReal θ3 ∧ AllReal θ4 ∧ AllReal θ5 ∧ AllReal θ6 := by
  have h0 := congrFun hpre ix0
  dsimp only [fn, fn_part1] at h0
  obtain ⟨h5, e6⟩ := IntOp.andi_eq_one.mp h0
  obtain ⟨h4, e5⟩ := IntOp.andi_eq_one.mp h5
  obtain ⟨h3, e4⟩ := IntOp.andi_eq_one.mp h4
  obtain ⟨h2, e3⟩ := IntOp.andi_eq_one.mp h3
  obtain ⟨h1, e2⟩ := IntOp.andi_eq_one.mp h2
  obtain ⟨e0, e1⟩ := IntOp.andi_eq_one.mp h1
  exact ⟨allReal_of_all_finite X _ _ _ _ _ e0, allReal_of_all_finite θ1 _ _ _ _ _ e1, allReal_of_all_finite θ2 _ _ _ _ _ e2,
    allReal_of_all_finite θ3 _ _ _ _ _ e3, allReal_of_all_finite θ4 _ _ _ _ _ e4, allReal_of_all_finite θ5 _ _ _ _ _ e5,
    allReal_of_all_finite θ6 _ _ _ _ _ e6⟩

end Cert.FiniteArgs

end
-- ==== Proof.lean ====
/-
  The certificate of the four-qubit expectation kernel.

  Both programs compute, on the host, the circuit's 16×16 unitary U from the six rotation angles and the observable M
  from constant gate matrices, and α = U·X for the 16 × 8192 batch X of input states.  The reference returns
  αᵀ·(M·α).  The kernel's program forms β = (M·U)·X on the host and a Pallas kernel over a 4×4 grid of 2048×2048 output
  blocks returns the array whose entry (p, q) is the inner product of column p of α with column q of β (each block:
  one matrix product of a 16×2048 slice of α, contracted on its 16 rows, with a slice of β; the change to a shorter
  float format on the way in is the identity on extended reals).

  Entry by entry both results are Σ_k α[k,p]·(M·U·X)[k,q] once (M·U)·X = M·(U·X): the associativity of the matrix
  product, which over the extended reals holds because every entry involved is a real number — X by the precondition,
  U and M because they are sums of products of cosines and sines of the real angles and of the constant matrices'
  entries.  The three frames: the two kernel programs' are the generated frame runs; the reference's is its run as one
  line of host operations, with the result dropped.  No operation was rewritten by the idealization, so there is
  nothing to preserve.
-/
import proofs.«114526_j71408126263792_2_alg».proof.Defs
import proofs.«114526_j71408126263792_2_alg».proof.Proof.Gen.Kernel
import proofs.«114526_j71408126263792_2_alg».proof.Proof.Gen.Kernel.Frame
import proofs.«114526_j71408126263792_2_alg».proof.Proof.Gen.KernelIdeal
import proofs.«114526_j71408126263792_2_alg».proof.Proof.Gen.KernelIdeal.Frame
import proofs.«114526_j71408126263792_2_alg».proof.Proof.Gen.ReferenceIdeal
import proofs.«114526_j71408126263792_2_alg».proof.Proof.Gen.Pre_finite_inputs
import proofs.«114526_j71408126263792_2_alg».proof.Proof.KerValue
import proofs.«114526_j71408126263792_2_alg».proof.Proof.KerHost
import proofs.«114526_j71408126263792_2_alg».proof.Proof.RefRead
import proofs.«114526_j71408126263792_2_alg».proof.Proof.RefKept
import proofs.«114526_j71408126263792_2_alg».proof.Proof.Bridge
import proofs.«114526_j71408126263792_2_alg».proof.Proof.FiniteArgs
import Idealize.ShloMosaic.Adequacy
import Idealize.ShloMosaic.Init

noncomputable section

namespace Cert.Proof

open Idealize.ShloMosaic Idealize.ShloMosaic.TcCoe Idealize.ShloMosaic.ValueIdx Idealize.SL.Sem
open Cert.RealEntries

/-! ## The two programs spell the same constant gate matrices -/

theorem tabX_eq : Cert.ReferenceIdeal.HostRun.tabX = Cert.KernelIdeal.HostValue.tabX :=
  funext fun i => congrArg (FloatOps.ofBits (F := Ideal) .f32)
    ((by decide : ∀ k : Fin 4, Cert.ReferenceIdeal.lit0 k = Cert.KernelIdeal.lit0 k) _)
theorem tabCN_eq : Cert.ReferenceIdeal.HostRun.tabCN = Cert.KernelIdeal.HostValue.tabCN :=
  funext fun i => congrArg (FloatOps.ofBits (F := Ideal) .f32)
    ((by decide : ∀ k : Fin 16, Cert.ReferenceIdeal.lit1 k = Cert.KernelIdeal.lit1 k) _)
theorem tabI_eq : Cert.ReferenceIdeal.HostRun.tabI = Cert.KernelIdeal.HostValue.tabI :=
  funext fun i => congrArg (FloatOps.ofBits (F := Ideal) .f32)
    ((by decide : ∀ k : Fin 4, Cert.ReferenceIdeal.lit2 k = Cert.KernelIdeal.lit2 k) _)
theorem tabZ_eq : Cert.ReferenceIdeal.HostRun.tabZ = Cert.KernelIdeal.HostValue.tabZ :=
  funext fun i => congrArg (FloatOps.ofBits (F := Ideal) .f32)
    ((by decide : ∀ k : Fin 4, Cert.ReferenceIdeal.lit3 k = Cert.KernelIdeal.lit3 k) _)

/-- Their entries are 0, 1 and -1: real numbers. -/
theorem tabX_real : AllReal Cert.KernelIdeal.HostValue.tabX :=
  AllReal.ofTable _ fun i => (by decide : ∀ k : Fin 4, ((Cert.KernelIdeal.lit0 k).extractLsb' 23 8).toNat ≠ 255) _
theorem tabCN_real : AllReal Cert.KernelIdeal.HostValue.tabCN :=
  AllReal.ofTable _ fun i => (by decide : ∀ k : Fin 16, ((Cert.KernelIdeal.lit1 k).extractLsb' 23 8).toNat ≠ 255) _
theorem tabI_real : AllReal Cert.KernelIdeal.HostValue.tabI :=
  AllReal.ofTable _ fun i => (by decide : ∀ k : Fin 4, ((Cert.KernelIdeal.lit2 k).extractLsb' 23 8).toNat ≠ 255) _
theorem tabZ_real : AllReal Cert.KernelIdeal.HostValue.tabZ :=
  AllReal.ofTable _ fun i => (by decide : ∀ k : Fin 4, ((Cert.KernelIdeal.lit3 k).extractLsb' 23 8).toNat ≠ 255) _

/-! ## The frames -/

theorem frame_k : Cert.frame_Kernel := fun m ρ _ => Cert.Kernel.Gen.frame m ρ

theorem frame_ki : Cert.frame_KernelIdeal := fun m ρ _ => Cert.KernelIdeal.Gen.frame m ρ

/-- The reference's run as one line of operations leaves each argument at its launch contents. -/
theorem frame_ri : Cert.frame_ReferenceIdeal := fun m ρ _ =>
  (θ_run Cert.ReferenceIdeal.defs _ _).mono (fun _ h c =>
    ⟨(h c _).trans (Cert.ReferenceIdeal.HostRun.kept_arg0 _), (h c _).trans (Cert.ReferenceIdeal.HostRun.kept_arg1 _),
      (h c _).trans (Cert.ReferenceIdeal.HostRun.kept_arg2 _), (h c _).trans (Cert.ReferenceIdeal.HostRun.kept_arg3 _),
      (h c _).trans (Cert.ReferenceIdeal.HostRun.kept_arg4 _), (h c _).trans (Cert.ReferenceIdeal.HostRun.kept_arg5 _),
      (h c _).trans (Cert.ReferenceIdeal.HostRun.kept_arg6 _)⟩)
    (Cert.ReferenceIdeal.HostRun.run_ops (F := Ideal) m ρ)

/-! ## The values -/

/-- The kernel's array — column inner products of U·X with (M·U)·X — is the reference's expectation matrix, when the
    arguments are real. -/
theorem outer_eq_expectation (cX cI cZ : FVec Ideal Cert.Circuit.S2x2 .f32) (cCN : FVec Ideal Cert.Circuit.S4x4 .f32)
    (θ1 θ2 θ3 θ4 θ5 θ6 : FVec Ideal Cert.Circuit.S1 .f32) (X : FVec Ideal Cert.Circuit.S16x8192 .f32)
    (hX : AllReal cX) (hI : AllReal cI) (hZ : AllReal cZ) (hCN : AllReal cCN)
    (h1 : AllReal θ1) (h2 : AllReal θ2) (h3 : AllReal θ3) (h4 : AllReal θ4) (h5 : AllReal θ5) (h6 : AllReal θ6) (hx : AllReal X) :
    Cert.Circuit.expectation (Cert.Circuit.unitary cX cI cCN θ1 θ2 θ3 θ4 θ5 θ6) (Cert.Circuit.observable cI cZ) X
      = Cert.KernelIdeal.OuterValue.outer
          (Cert.Circuit.apply (Cert.Circuit.unitary cX cI cCN θ1 θ2 θ3 θ4 θ5 θ6) X)
          (Cert.Circuit.apply (Cert.Circuit.mm (Cert.Circuit.observable cI cZ) (Cert.Circuit.unitary cX cI cCN θ1 θ2 θ3 θ4 θ5 θ6)) X) := by
  funext j
  obtain ⟨p, q, rfl⟩ : ∃ (p q : Fin 8192), j = ix2 p q := ⟨j 0, j 1, eq_ix2 j⟩
  exact Cert.Bridge.expectation_at _ _ X (Cert.Circuit.observable_real hI hZ)
    (Cert.Circuit.unitary_real hX hI hCN h1 h2 h3 h4 h5 h6) hx p q

theorem algebraic : Cert.algebraic_KernelIdeal_ReferenceIdeal := by
  intro m ρ m' ρ' hpre hagree
  refine ⟨fun c => Cert.KernelIdeal.OuterValue.outer (Cert.KernelIdeal.Gen.V m c Cert.KernelIdeal.main_v108)
    (Cert.KernelIdeal.Gen.V m c Cert.KernelIdeal.main_v109), Cert.KernelIdeal.OuterValue.run m ρ, ?_⟩
  refine (θ_run Cert.ReferenceIdeal.defs _ _).mono (fun _ h c =>
    ⟨?_, (h c _).trans (Cert.ReferenceIdeal.HostRun.kept_arg0 _), (h c _).trans (Cert.ReferenceIdeal.HostRun.kept_arg1 _),
      (h c _).trans (Cert.ReferenceIdeal.HostRun.kept_arg2 _), (h c _).trans (Cert.ReferenceIdeal.HostRun.kept_arg3 _),
      (h c _).trans (Cert.ReferenceIdeal.HostRun.kept_arg4 _), (h c _).trans (Cert.ReferenceIdeal.HostRun.kept_arg5 _),
      (h c _).trans (Cert.ReferenceIdeal.HostRun.kept_arg6 _)⟩)
    (Cert.ReferenceIdeal.HostRun.run_ops (F := Ideal) m' ρ')
  obtain ⟨r0, r1, r2, r3, r4, r5, r6⟩ := Cert.FiniteArgs.allReal_of_pre _ _ _ _ _ _ _ (hpre c)
  obtain ⟨a0, a1, a2, a3, a4, a5, a6⟩ := hagree c
  refine (h c _).trans ?_
  rw [Cert.ReferenceIdeal.HostRun.result_eq]
  show Cert.Circuit.expectation
      (Cert.Circuit.unitary Cert.ReferenceIdeal.HostRun.tabX Cert.ReferenceIdeal.HostRun.tabI Cert.ReferenceIdeal.HostRun.tabCN
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)))
      (Cert.Circuit.observable Cert.ReferenceIdeal.HostRun.tabI Cert.ReferenceIdeal.HostRun.tabZ)
      (m' ((c.tc : Thread Cert.ReferenceIdeal.nD Cert.ReferenceIdeal.τ).loc Cert.ReferenceIdeal.main_arg0))
    = Cert.KernelIdeal.OuterValue.outer (Cert.KernelIdeal.Gen.V m c Cert.KernelIdeal.main_v108)
        (Cert.KernelIdeal.Gen.V m c Cert.KernelIdeal.main_v109)
  rw [a0, a1, a2, a3, a4, a5, a6, tabX_eq, tabI_eq, tabCN_eq, tabZ_eq,
    Cert.KernelIdeal.HostValue.V_alpha m c, Cert.KernelIdeal.HostValue.V_beta m c]
  exact outer_eq_expectation _ _ _ _ _ _ _ _ _ _ _ tabX_real tabI_real tabZ_real tabCN_real r1 r2 r3 r4 r5 r6 r0

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
